-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x23 : Shape := ⟨3, ![8, 3, 23]⟩
abbrev S8x23x64x64x64 : Shape := ⟨5, ![8, 23, 64, 64, 64]⟩
abbrev S8x262144x3 : Shape := ⟨3, ![8, 262144, 3]⟩
abbrev S_ : Shape := ⟨0, ![]⟩

class Facts : Prop where
  bcast_S_S8x3x23 : S_.BroadcastsInDim S8x3x23 (![] : Fin 0 → Fin S8x3x23.rank)
  reducesTo_S8x3x23_S_d0_1_2 : S8x3x23.ReducesTo [0, 1, 2] S_
  h_S_ : 0 < S_.numel
  bcast_S_S8x23x64x64x64 : S_.BroadcastsInDim S8x23x64x64x64 (![] : Fin 0 → Fin S8x23x64x64x64.rank)
  reducesTo_S8x23x64x64x64_S_d0_1_2_3_4 : S8x23x64x64x64.ReducesTo [0, 1, 2, 3, 4] S_
  bcast_S_S8x262144x3 : S_.BroadcastsInDim S8x262144x3 (![] : Fin 0 → Fin S8x262144x3.rank)
  reducesTo_S8x262144x3_S_d0_1_2 : S8x262144x3.ReducesTo [0, 1, 2] S_

variable [Facts]

def fn_part1 {F : FTy → Type} [FloatOps F] (main_v13 : IVec S_ 1) (main_v16 : IVec S8x262144x3 1) : IVec S_ 1 :=
  let main_c_5 : IVec S_ 1 := constantI S_ 1 1#1
  let main_v17 : IVec S_ 1 := (fun x v => Host.reduce IntOp.andi x v reducesTo_S8x262144x3_S_d0_1_2 h_S_) main_v16 main_c_5
  let main_v18 : IVec S_ 1 := andi main_v13 main_v17
  main_v18

def fn {F : FTy → Type} [FloatOps F] (main_arg0 : FVec F S8x3x23 .f32) (main_arg1 : FVec F S8x3x23 .f32) (main_arg2 : FVec F S8x23x64x64x64 .f32) (main_arg3 : FVec F S8x262144x3 .f32) : IVec S_ 1 :=
  let main_v0 : FVec F S8x3x23 .f32 := Host.absf main_arg0
  let main_cst : FVec F S_ .f32 := constant S_ .f32 0x7F800000#32
  let main_v1 : FVec F S8x3x23 .f32 := broadcastInDim S8x3x23 ![] bcast_S_S8x3x23 main_cst
  let main_v2 : IVec S8x3x23 1 := cmpf .olt main_v0 main_v1
  let main_c : IVec S_ 1 := constantI S_ 1 1#1
  let main_v3 : IVec S_ 1 := (fun x v => Host.reduce IntOp.andi x v reducesTo_S8x3x23_S_d0_1_2 h_S_) main_v2 main_c
  let main_v4 : FVec F S8x3x23 .f32 := Host.absf main_arg1
  let main_cst_0 : FVec F S_ .f32 := constant S_ .f32 0x7F800000#32
  let main_v5 : FVec F S8x3x23 .f32 := broadcastInDim S8x3x23 ![] bcast_S_S8x3x23 main_cst_0
  let main_v6 : IVec S8x3x23 1 := cmpf .olt main_v4 main_v5
  let main_c_1 : IVec S_ 1 := constantI S_ 1 1#1
  let main_v7 : IVec S_ 1 := (fun x v => Host.reduce IntOp.andi x v reducesTo_S8x3x23_S_d0_1_2 h_S_) main_v6 main_c_1
  let main_v8 : IVec S_ 1 := andi main_v3 main_v7
  let main_v9 : FVec F S8x23x64x64x64 .f32 := Host.absf main_arg2
  let main_cst_2 : FVec F S_ .f32 := constant S_ .f32 0x7F800000#32
  let main_v10 : FVec F S8x23x64x64x64 .f32 := broadcastInDim S8x23x64x64x64 ![] bcast_S_S8x23x64x64x64 main_cst_2
  let main_v11 : IVec S8x23x64x64x64 1 := cmpf .olt main_v9 main_v10
  let main_c_3 : IVec S_ 1 := constantI S_ 1 1#1
  let main_v12 : IVec S_ 1 := (fun x v => Host.reduce IntOp.andi x v reducesTo_S8x23x64x64x64_S_d0_1_2_3_4 h_S_) main_v11 main_c_3
  let main_v13 : IVec S_ 1 := andi main_v8 main_v12
  let main_v14 : FVec F S8x262144x3 .f32 := Host.absf main_arg3
  let main_cst_4 : FVec F S_ .f32 := constant S_ .f32 0x7F800000#32
  let main_v15 : FVec F S8x262144x3 .f32 := broadcastInDim S8x262144x3 ![] bcast_S_S8x262144x3 main_cst_4
  let main_v16 : IVec S8x262144x3 1 := cmpf .olt main_v14 main_v15
  fn_part1 (F := F) main_v13 main_v16
-- ==== Kernel.lean ====
abbrev S8x3x23 : Shape := ⟨3, ![8, 3, 23]⟩
abbrev S8x23x64x64x64 : Shape := ⟨5, ![8, 23, 64, 64, 64]⟩
abbrev S8x262144x3 : Shape := ⟨3, ![8, 262144, 3]⟩
abbrev S8x3x262144 : Shape := ⟨3, ![8, 3, 262144]⟩
abbrev S8x23x262144 : Shape := ⟨3, ![8, 23, 262144]⟩
abbrev S8x23x1 : Shape := ⟨3, ![8, 23, 1]⟩
abbrev S1x3x32768 : Shape := ⟨3, ![1, 3, 32768]⟩
abbrev S1x3x23 : Shape := ⟨3, ![1, 3, 23]⟩
abbrev S1x23x32768 : Shape := ⟨3, ![1, 23, 32768]⟩
abbrev S1x23x1 : Shape := ⟨3, ![1, 23, 1]⟩
abbrev S1x23x3 : Shape := ⟨3, ![1, 23, 3]⟩
abbrev S1x32768 : Shape := ⟨2, ![1, 32768]⟩
abbrev S1x1x32768 : Shape := ⟨3, ![1, 1, 32768]⟩
abbrev S1x23 : Shape := ⟨2, ![1, 23]⟩
abbrev S_ : Shape := ⟨0, ![]⟩

abbrev nBuf : Space → Nat
  | .hbm => 24
  | .vmem => 17
  | .smem => 0
  | _ => 0

abbrev bufTy : (tb : Table) → Fin (tcTables nBuf tb) → BufTy
  | .hbm, ⟨0, _⟩ => ⟨S8x3x23, .f32⟩
  | .hbm, ⟨1, _⟩ => ⟨S8x3x23, .f32⟩
  | .hbm, ⟨2, _⟩ => ⟨S8x23x64x64x64, .f32⟩
  | .hbm, ⟨3, _⟩ => ⟨S8x262144x3, .f32⟩
  | .hbm, ⟨4, _⟩ => ⟨S8x3x262144, .f32⟩
  | .hbm, ⟨5, _⟩ => ⟨S8x23x262144, .f32⟩
  | .hbm, ⟨6, _⟩ => ⟨S8x23x1, .f32⟩
  | .hbm, ⟨7, _⟩ => ⟨S8x23x1, .f32⟩
  | .hbm, ⟨8, _⟩ => ⟨S8x23x1, .f32⟩
  | .hbm, ⟨9, _⟩ => ⟨S8x23x1, .f32⟩
  | .hbm, ⟨10, _⟩ => ⟨S8x23x1, .f32⟩
  | .hbm, ⟨11, _⟩ => ⟨S8x23x1, .f32⟩
  | .hbm, ⟨12, _⟩ => ⟨S_, .f32⟩
  | .hbm, ⟨13, _⟩ => ⟨S8x23x1, .f32⟩
  | .hbm, ⟨14, _⟩ => ⟨S8x23x1, .f32⟩
  | .hbm, ⟨15, _⟩ => ⟨S8x23x1, .f32⟩
  | .hbm, ⟨16, _⟩ => ⟨S8x23x1, .f32⟩
  | .hbm, ⟨17, _⟩ => ⟨S8x23x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1x3x32768, .f32⟩
  | .local _ .vmem, ⟨1, _⟩ => ⟨S1x3x32768, .f32⟩
  | .local _ .vmem, ⟨2, _⟩ => ⟨S1x3x23, .f32⟩
  | .local _ .vmem, ⟨3, _⟩ => ⟨S1x23x32768, .f32⟩
  | .local _ .vmem, ⟨4, _⟩ => ⟨S1x23x32768, .f32⟩
  | .local _ .vmem, ⟨5, _⟩ => ⟨S1x23x1, .f32⟩
  | .local _ .vmem, ⟨6, _⟩ => ⟨S1x23x1, .f32⟩
  | .local _ .vmem, ⟨7, _⟩ => ⟨S1x23x1, .f32⟩
  | .local _ .vmem, ⟨8, _⟩ => ⟨S1x23x1, .f32⟩
  | .local _ .vmem, ⟨9, _⟩ => ⟨S1x23x1, .f32⟩
  | .local _ .vmem, ⟨10, _⟩ => ⟨S1x23x1, .f32⟩
  | .local _ .vmem, ⟨11, _⟩ => ⟨S1x23x1, .f32⟩
  | .local _ .vmem, ⟨12, _⟩ => ⟨S1x23x1, .f32⟩
  | .local _ .vmem, ⟨13, _⟩ => ⟨S1x23x1, .f32⟩
  | .local _ .vmem, ⟨14, _⟩ => ⟨S1x23x1, .f32⟩
  | .local _ .vmem, ⟨15, _⟩ => ⟨S1x23x1, .f32⟩
  | .local _ .vmem, ⟨16, _⟩ => ⟨S1x23x1, .f32⟩
  | _, _ => ⟨S8x3x23, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v75 : BitVec 1 := Scalar.cmpi .eq arg1 c7_i32
  let v76 : BitVec 32 := Scalar.extui v75
  let c0_i32_41 : BitVec 32 := 0#32
  let v77 : BitVec 1 := Scalar.cmpi .ne v76 c0_i32_41
  v77

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x3x23 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x23x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x23x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x23x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x23x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x23x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  transposes_S8x262144x3_S8x3x262144_0_2_1 : S8x262144x3.Transposes [0, 2, 1] S8x3x262144
  shapeCasts_S8x23x64x64x64_S8x23x262144 : S8x23x64x64x64.ShapeCasts S8x23x262144
  inb_S1x23x1_S1x23x1_0_0_0 : ∀ a, (![0, 0, 0] : Fin 3 → Nat) a + S1x23x1.size a ≤ S1x23x1.size a
  h_S1x23x1 : 0 < S1x23x1.numel
  shapeCasts_S1x23x1_S1x23x1 : S1x23x1.ShapeCasts S1x23x1
  inb_S1x3x32768_S1x3x32768_0_0_0 : ∀ a, (![0, 0, 0] : Fin 3 → Nat) a + S1x3x32768.size a ≤ S1x3x32768.size a
  h_S1x3x32768 : 0 < S1x3x32768.numel
  shapeCasts_S1x3x32768_S1x3x32768 : S1x3x32768.ShapeCasts S1x3x32768
  inb_S1x3x23_S1x3x23_0_0_0 : ∀ a, (![0, 0, 0] : Fin 3 → Nat) a + S1x3x23.size a ≤ S1x3x23.size a
  h_S1x3x23 : 0 < S1x3x23.numel
  transposes_S1x3x23_p0_2_1_S1x23x3 : S1x3x23.Transposes [0, 2, 1] S1x23x3
  reduces_S1x3x32768_S1x32768 : S1x3x32768.Reduces [1] S1x32768
  shapeCasts_S1x32768_S1x1x32768 : S1x32768.ShapeCasts S1x1x32768
  reduces_S1x23x3_S1x23 : S1x23x3.Reduces [2] S1x23
  shapeCasts_S1x23_S1x23x1 : S1x23.ShapeCasts S1x23x1
  slices_S1x23x3_o0_0_0_S1x23x1 : S1x23x3.Slices ![0, 0, 0] S1x23x1
  slices_S1x3x32768_o0_0_0_S1x1x32768 : S1x3x32768.Slices ![0, 0, 0] S1x1x32768
  broadcasts_S1x23x1_S1x23x32768 : S1x23x1.Broadcasts S1x23x32768
  broadcasts_S1x1x32768_S1x23x32768 : S1x1x32768.Broadcasts S1x23x32768
  slices_S1x23x3_o0_0_1_S1x23x1 : S1x23x3.Slices ![0, 0, 1] S1x23x1
  slices_S1x3x32768_o0_1_0_S1x1x32768 : S1x3x32768.Slices ![0, 1, 0] S1x1x32768
  slices_S1x23x3_o0_0_2_S1x23x1 : S1x23x3.Slices ![0, 0, 2] S1x23x1
  slices_S1x3x32768_o0_2_0_S1x1x32768 : S1x3x32768.Slices ![0, 2, 0] S1x1x32768
  inb_S1x23x32768_S1x23x32768_0_0_0 : ∀ a, (![0, 0, 0] : Fin 3 → Nat) a + S1x23x32768.size a ≤ S1x23x32768.size a
  h_S1x23x32768 : 0 < S1x23x32768.numel
  shapeCasts_S1x23x32768_S1x23x32768 : S1x23x32768.ShapeCasts S1x23x32768
  reduces_S1x23x32768_S1x23 : S1x23x32768.Reduces [2] S1x23
  bcast_S_S8x23x1 : S_.BroadcastsInDim S8x23x1 (![] : Fin 0 → Fin S8x23x1.rank)
  reducesTo_S8x23x1_S_d0_1_2 : S8x23x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x32768.size a ≤ S8x3x262144.size a
  hwx0_0 : ∀ i : grid0.Coords, EltTy.bits .f32 = 32 ∨ (Rect.block (s := S8x3x262144) S1x3x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x3x23.size a ≤ S8x3x23.size a
  hwx0_1 : ∀ i : grid0.Coords, EltTy.bits .f32 = 32 ∨ (Rect.block (s := S8x3x23) S1x3x23.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x23x32768.size a ≤ S8x23x262144.size a
  hwx0_2 : ∀ i : grid0.Coords, EltTy.bits .f32 = 32 ∨ (Rect.block (s := S8x23x262144) S1x23x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x23x1.size a ≤ S8x23x1.size a
  hwx0_3 : ∀ i : grid0.Coords, EltTy.bits .f32 = 32 ∨ (Rect.block (s := S8x23x1) S1x23x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x23x1.size a ≤ S8x23x1.size a
  hwx0_4 : ∀ i : grid0.Coords, EltTy.bits .f32 = 32 ∨ (Rect.block (s := S8x23x1) S1x23x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x23x1.size a ≤ S8x23x1.size a
  hwx0_5 : ∀ i : grid0.Coords, EltTy.bits .f32 = 32 ∨ (Rect.block (s := S8x23x1) S1x23x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x23x1.size a ≤ S8x23x1.size a
  hwx0_6 : ∀ i : grid0.Coords, EltTy.bits .f32 = 32 ∨ (Rect.block (s := S8x23x1) S1x23x1.size (cc0_transform_6 i) (hinb0_6 i)).WholeWords (EltTy.packing .f32)

variable [Facts₀]

abbrev win0_0 : Pipeline.Window sig grid0 :=
  Pipeline.Window.ofSpec (Memref.whole main_v0) S1x3x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x23.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x23x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x23x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x23x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1x23x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_3) S1x23x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x3x23 : Shape := ⟨3, ![8, 3, 23]⟩
abbrev S8x23x64x64x64 : Shape := ⟨5, ![8, 23, 64, 64, 64]⟩
abbrev S8x262144x3 : Shape := ⟨3, ![8, 262144, 3]⟩
abbrev S_ : Shape := ⟨0, ![]⟩
abbrev S8x262144 : Shape := ⟨2, ![8, 262144]⟩
abbrev S8x23 : Shape := ⟨2, ![8, 23]⟩
abbrev S8x23x262144 : Shape := ⟨3, ![8, 23, 262144]⟩
abbrev S8x1x262144 : Shape := ⟨3, ![8, 1, 262144]⟩
abbrev S8x23x1 : Shape := ⟨3, ![8, 23, 1]⟩

abbrev nBuf : Space → Nat
  | .hbm => 48
  | .vmem => 0
  | .smem => 0
  | _ => 0

abbrev bufTy : (tb : Table) → Fin (tcTables nBuf tb) → BufTy
  | .hbm, ⟨0, _⟩ => ⟨S8x3x23, .f32⟩
  | .hbm, ⟨1, _⟩ => ⟨S8x3x23, .f32⟩
  | .hbm, ⟨2, _⟩ => ⟨S8x23x64x64x64, .f32⟩
  | .hbm, ⟨3, _⟩ => ⟨S8x262144x3, .f32⟩
  | .hbm, ⟨4, _⟩ => ⟨S8x262144x3, .f32⟩
  | .hbm, ⟨5, _⟩ => ⟨S_, .f32⟩
  | .hbm, ⟨6, _⟩ => ⟨S8x262144, .f32⟩
  | .hbm, ⟨7, _⟩ => ⟨S8x3x23, .f32⟩
  | .hbm, ⟨8, _⟩ => ⟨S_, .f32⟩
  | .hbm, ⟨9, _⟩ => ⟨S8x23, .f32⟩
  | .hbm, ⟨10, _⟩ => ⟨S8x23x262144, .f32⟩
  | .hbm, ⟨11, _⟩ => ⟨S8x1x262144, .f32⟩
  | .hbm, ⟨12, _⟩ => ⟨S8x23x1, .f32⟩
  | .hbm, ⟨13, _⟩ => ⟨S8x23x262144, .f32⟩
  | .hbm, ⟨14, _⟩ => ⟨S8x23x262144, .f32⟩
  | .hbm, ⟨15, _⟩ => ⟨S8x23x262144, .f32⟩
  | .hbm, ⟨16, _⟩ => ⟨S_, .f32⟩
  | .hbm, ⟨17, _⟩ => ⟨S8x23x262144, .f32⟩
  | .hbm, ⟨18, _⟩ => ⟨S8x23x262144, .f32⟩
  | .hbm, ⟨19, _⟩ => ⟨S8x23x262144, .f32⟩
  | .hbm, ⟨20, _⟩ => ⟨S8x23x262144, .f32⟩
  | .hbm, ⟨21, _⟩ => ⟨S8x23x262144, .f32⟩
  | .hbm, ⟨22, _⟩ => ⟨S_, .f32⟩
  | .hbm, ⟨23, _⟩ => ⟨S8x23x262144, .f32⟩
  | .hbm, ⟨24, _⟩ => ⟨S8x23x262144, .f32⟩
  | .hbm, ⟨25, _⟩ => ⟨S_, .f32⟩
  | .hbm, ⟨26, _⟩ => ⟨S8x23, .f32⟩
  | .hbm, ⟨27, _⟩ => ⟨S_, .f32⟩
  | .hbm, ⟨28, _⟩ => ⟨S8x23, .f32⟩
  | .hbm, ⟨29, _⟩ => ⟨S8x23, .f32⟩
  | .hbm, ⟨30, _⟩ => ⟨S8x23x1, .f32⟩
  | .hbm, ⟨31, _⟩ => ⟨S8x23x262144, .f32⟩
  | .hbm, ⟨32, _⟩ => ⟨S8x23x262144, .f32⟩
  | .hbm, ⟨33, _⟩ => ⟨S8x23x262144, .f32⟩
  | .hbm, ⟨34, _⟩ => ⟨S_, .f32⟩
  | .hbm, ⟨35, _⟩ => ⟨S8x23, .f32⟩
  | .hbm, ⟨36, _⟩ => ⟨S8x23x1, .f32⟩
  | .hbm, ⟨37, _⟩ => ⟨S8x23x262144, .f32⟩
  | .hbm, ⟨38, _⟩ => ⟨S8x23x262144, .f32⟩
  | .hbm, ⟨39, _⟩ => ⟨S8x23x64x64x64, .f32⟩
  | .hbm, ⟨40, _⟩ => ⟨S8x23x64x64x64, .f32⟩
  | .hbm, ⟨41, _⟩ => ⟨S8x23x64x64x64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S8x3x23, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  reducesTo_S8x262144x3_S8x262144_d2 : S8x262144x3.ReducesTo [2] S8x262144
  h_S_ : 0 < S_.numel
  reducesTo_S8x3x23_S8x23_d1 : S8x3x23.ReducesTo [1] S8x23
  bcast_S8x262144_S8x1x262144_0_2 : S8x262144.BroadcastsInDim S8x1x262144 (![0, 2] : Fin 2 → Fin S8x1x262144.rank)
  bcast_S8x23_S8x23x1_0_1 : S8x23.BroadcastsInDim S8x23x1 (![0, 1] : Fin 2 → Fin S8x23x1.rank)
  bcast_S8x1x262144_S8x23x262144_0_1_2 : S8x1x262144.BroadcastsInDim S8x23x262144 (![0, 1, 2] : Fin 3 → Fin S8x23x262144.rank)
  bcast_S8x23x1_S8x23x262144_0_1_2 : S8x23x1.BroadcastsInDim S8x23x262144 (![0, 1, 2] : Fin 3 → Fin S8x23x262144.rank)
  bcast_S_S8x23x262144 : S_.BroadcastsInDim S8x23x262144 (![] : Fin 0 → Fin S8x23x262144.rank)
  reducesTo_S8x23x262144_S8x23_d2 : S8x23x262144.ReducesTo [2] S8x23
  bcast_S_S8x23 : S_.BroadcastsInDim S8x23 (![] : Fin 0 → Fin S8x23.rank)
  shapeCasts_S8x23x262144_S8x23x64x64x64 : S8x23x262144.ShapeCasts S8x23x64x64x64
  reducesTo_S8x23x64x64x64_S_d0_1_2_3_4 : S8x23x64x64x64.ReducesTo [0, 1, 2, 3, 4] S_
  dot_S8x3x23_S8x262144x3_S8x23x262144_1_2_2_1_0_0_wf : DotDims.WF S8x3x23 S8x262144x3 S8x23x262144 [1] [2] [2] [1] [0] [0]

variable [Facts₀]

def dot_S8x3x23_S8x262144x3_S8x23x262144_1_2_2_1_0_0 : DotDims S8x3x23 S8x262144x3 S8x23x262144 where
  lhsContracting := [1]
  rhsContracting := [2]
  lhsNonContracting := [2]
  rhsNonContracting := [1]
  lhsBatch := [0]
  rhsBatch := [0]
  wf := dot_S8x3x23_S8x262144x3_S8x23x262144_1_2_2_1_0_0_wf

class Facts : Prop extends Facts₀ where

variable [Facts]
-- ==== Proof.Spec.lean ====
/-
  The two losses, as functions of the three argument arrays read by coordinates.

  `g b n k` is coordinate `k` of grid point `n` in batch `b`, `cen b k j` coordinate `k` of joint `j`'s predicted
  centre, `h b j n` the heat map of joint `j` at grid point `n` (the five-axis array read through its row-major
  reshape to [8, 23, 262144]). With `d b j n` the squared distance from grid point `n` to centre `j` (expanded as
  |g|² + |c|² - 2 g·c) and the logit `y = 2 · exp (-d)`:

  * the one-pass form keeps, per (b, j), the four sums S = Σ e, A = Σ e², B = Σ e·h, C = Σ h² over the grid points,
    with `e = exp y`, and returns Σ_{b,j} (A / S² - 2 B / S + C) / 8;
  * the direct form returns Σ_{b,j,n} (softmax_n y - h)² / 8, the softmax computed after subtracting the row's
    maximum.

  Both are stated over the extended reals with the float words kept as words; that they agree on finite arrays is
  the law proved in `Law.lean`.
-/
import Idealize.ShloMosaic.PureOps.Ideal

noncomputable section

namespace Cert.Spec

open Idealize.ShloMosaic

/-- The float words of the two programs. -/
abbrev zero : EReal := Ideal.ofBits .f32 0x00000000#32
abbrev one : EReal := Ideal.ofBits .f32 0x3F800000#32
abbrev two : EReal := Ideal.ofBits .f32 0x40000000#32
abbrev half : EReal := Ideal.ofBits .f32 0x3F000000#32
abbrev eight : EReal := Ideal.ofBits .f32 0x41000000#32
abbrev negInf : EReal := Ideal.ofBits .f32 0xFF800000#32

variable (g : Fin 8 → Fin 262144 → Fin 3 → EReal) (cen : Fin 8 → Fin 3 → Fin 23 → EReal)
  (h : Fin 8 → Fin 23 → Fin 262144 → EReal)

/-- The squared distance from grid point `n` to centre `j`, expanded: |g|² + |c|² - 2 g·c. -/
def dist2 (b : Fin 8) (j : Fin 23) (n : Fin 262144) : EReal :=
  ((∑ k : Fin 3, g b n k * g b n k) + ∑ k : Fin 3, cen b k j * cen b k j) - two * ∑ k : Fin 3, cen b k j * g b n k

/-! ## The one-pass form -/

/-- The logit as the one-pass form computes it: exp (0 - d) · 2. -/
def logitK (b : Fin 8) (j : Fin 23) (n : Fin 262144) : EReal := Ideal.exp (zero - dist2 g cen b j n) * two

/-- The unnormalised weight exp y. -/
def wgt (b : Fin 8) (j : Fin 23) (n : Fin 262144) : EReal := Ideal.exp (logitK g cen b j n)

def sumW (b : Fin 8) (j : Fin 23) : EReal := ∑ n : Fin 262144, wgt g cen b j n
def sumWW (b : Fin 8) (j : Fin 23) : EReal := ∑ n : Fin 262144, wgt g cen b j n * wgt g cen b j n
def sumWH (b : Fin 8) (j : Fin 23) : EReal := ∑ n : Fin 262144, wgt g cen b j n * h b j n
def sumHH (b : Fin 8) (j : Fin 23) : EReal := ∑ n : Fin 262144, h b j n * h b j n

/-- One row's squared error from its four sums: A / S² - 2 B / S + C. -/
def rowLoss (b : Fin 8) (j : Fin 23) : EReal :=
  (Ideal.div (sumWW g cen b j) (sumW g cen b j * sumW g cen b j) - Ideal.div (two * sumWH g cen h b j) (sumW g cen b j))
    + sumHH h b j

/-- The one-pass loss. -/
def kernelLoss : EReal := one * Ideal.div (zero + ∑ b : Fin 8, ∑ j : Fin 23, rowLoss g cen h b j) eight

/-! ## The direct form -/

/-- The logit as the direct form computes it: exp (-d) / 0.5. -/
def logitR (b : Fin 8) (j : Fin 23) (n : Fin 262144) : EReal := Ideal.div (Ideal.exp (-(dist2 g cen b j n))) half

/-- The row's maximum, folded from -∞ and then joined with -∞ once more. -/
def rowMax (b : Fin 8) (j : Fin 23) : EReal :=
  max negInf ((Finset.univ : Finset (Fin 262144)).fold max negInf fun n => logitR g cen b j n)

/-- exp (y - max y). -/
def shifted (b : Fin 8) (j : Fin 23) (n : Fin 262144) : EReal := Ideal.exp (logitR g cen b j n - rowMax g cen b j)

/-- The softmax along the grid points. -/
def soft (b : Fin 8) (j : Fin 23) (n : Fin 262144) : EReal :=
  Ideal.div (shifted g cen b j n) (zero + ∑ k : Fin 262144, shifted g cen b j k)

/-- The direct loss. -/
def referenceLoss : EReal :=
  one * Ideal.div (zero + ∑ b : Fin 8, ∑ j : Fin 23, ∑ n : Fin 262144,
    (soft g cen b j n - h b j n) * (soft g cen b j n - h b j n)) eight

end Cert.Spec

end
-- ==== Proof.Law.lean ====
/-
  The law the two losses meet at: on arrays of finite entries the one-pass form and the direct form agree.

  Every entry being a real, the squared distance d is a real, and both forms' logit is the real y = 2 · exp (-d)
  (0 - d = -d, and dividing by one half is doubling). Per row (b, j), with e_n = exp y_n > 0 and S = Σ e_n > 0:
  the row's maximum m is a real (a fold of max over coerced reals on a nonempty index set, joined with -∞),
  exp (y_n - m) = e_n / exp m, so the shifted weights sum to S / exp m and the softmax is e_n / S; expanding the
  square, Σ_n (e_n / S - h_n)² = A / S² - 2 B / S + C with A = Σ e², B = Σ e·h, C = Σ h². The row lemmas are
  proved over an abstract nonempty finite index type and instantiated at the grid points.
-/
import proofs.«132371_j57226144252798_2_alg».proof.Proof.Spec
import Idealize.ShloMosaic.PureOps.Ideal.Laws

noncomputable section

namespace Cert.Law

open Idealize.ShloMosaic Cert.Spec

/-! ## The float words as extended reals -/

theorem zero_eq : zero = 0 := Ideal.ofBits_zero_f32

theorem one_eq : one = ((1 : ℝ) : EReal) := by
  show Ideal.ofBits .f32 0x3F800000#32 = _
  simp [Ideal.ofBits, Ideal.ieee, -EReal.coe_mul]; norm_num

theorem two_eq : two = ((2 : ℝ) : EReal) := by
  show Ideal.ofBits .f32 0x40000000#32 = _
  simp [Ideal.ofBits, Ideal.ieee, -EReal.coe_mul]; norm_num

theorem half_eq : half = ((1 / 2 : ℝ) : EReal) := by
  show Ideal.ofBits .f32 0x3F000000#32 = _
  simp [Ideal.ofBits, Ideal.ieee, -EReal.coe_mul]; norm_num

theorem eight_eq : eight = ((8 : ℝ) : EReal) := by
  show Ideal.ofBits .f32 0x41000000#32 = _
  simp [Ideal.ofBits, Ideal.ieee, -EReal.coe_mul]; norm_num

theorem negInf_eq : negInf = ⊥ := by
  show Ideal.ofBits .f32 0xFF800000#32 = _
  simp [Ideal.ofBits, Ideal.ieee]

/-! ## Finite sums and maxima of coerced reals -/

/-- A finite sum of coerced reals is the coerced sum. -/
theorem coe_sum {ι : Type*} (s : Finset ι) (f : ι → ℝ) :
    ∑ n ∈ s, ((f n : ℝ) : EReal) = ((∑ n ∈ s, f n : ℝ) : EReal) := by
  classical
  refine Finset.induction_on s ?_ ?_
  · simp
  · intro a s ha ih
    rw [Finset.sum_insert ha, Finset.sum_insert ha, ih, EReal.coe_add]

/-- A fold of max from -∞ over coerced reals is -∞ on the empty set and a coerced real otherwise. -/
theorem fold_max_coe {ι : Type*} [DecidableEq ι] (s : Finset ι) (y : ι → ℝ) :
    (s.fold max (⊥ : EReal) (fun n => (y n : EReal)) = ⊥ ∧ s = ∅) ∨
      ∃ m : ℝ, s.fold max (⊥ : EReal) (fun n => (y n : EReal)) = (m : EReal) := by
  refine Finset.induction_on s ?_ ?_
  · left; exact ⟨Finset.fold_empty, rfl⟩
  · intro a s ha ih
    right
    rw [Finset.fold_insert ha]
    rcases ih with ⟨h0, _⟩ | ⟨m, hm⟩
    · rw [h0]; exact ⟨y a, max_eq_left bot_le⟩
    · rw [hm]; exact ⟨max (y a) m, (EReal.coe_strictMono.monotone.map_max).symm⟩

/-- On a nonempty index set the row's maximum (the fold joined with -∞ once more) is a real. -/
theorem rowMax_real {N : Type*} [Fintype N] [Nonempty N] (y : N → ℝ) :
    ∃ m : ℝ, max negInf ((Finset.univ : Finset N).fold max negInf fun n => (y n : EReal)) = (m : EReal) := by
  classical
  rw [negInf_eq]
  rcases fold_max_coe (Finset.univ : Finset N) y with ⟨_, h⟩ | ⟨m, hm⟩
  · exact absurd h Finset.univ_nonempty.ne_empty
  · exact ⟨m, by rw [hm]; exact max_eq_right bot_le⟩

/-! ## One row, over an abstract nonempty finite index set -/

/-- One row's squared error from its four sums, in the reals: A · (1 / S²) - 2 B · (1 / S) + C. -/
def rowR {N : Type*} [Fintype N] (y hR : N → ℝ) : ℝ :=
  (∑ n, Real.exp (y n) * Real.exp (y n)) * (1 / ((∑ n, Real.exp (y n)) * ∑ n, Real.exp (y n)))
    - (2 * ∑ n, Real.exp (y n) * hR n) * (1 / ∑ n, Real.exp (y n)) + ∑ n, hR n * hR n

theorem sum_exp_pos {N : Type*} [Fintype N] [Nonempty N] (y : N → ℝ) : 0 < ∑ n, Real.exp (y n) :=
  Finset.sum_pos (fun n _ => Real.exp_pos _) Finset.univ_nonempty

/-- The one-pass row: the four sums are reals, S > 0, and the two quotients are real products. -/
theorem kernel_row {N : Type*} [Fintype N] [Nonempty N] (y hR : N → ℝ) :
    (Ideal.div (∑ n, Ideal.exp (y n : EReal) * Ideal.exp (y n : EReal))
          ((∑ n, Ideal.exp (y n : EReal)) * ∑ n, Ideal.exp (y n : EReal))
        - Ideal.div (two * ∑ n, Ideal.exp (y n : EReal) * (hR n : EReal)) (∑ n, Ideal.exp (y n : EReal)))
      + ∑ n, (hR n : EReal) * (hR n : EReal) = (rowR y hR : EReal) := by
  have hS := sum_exp_pos y
  simp only [Ideal.exp_coe, ← EReal.coe_mul, coe_sum, two_eq]
  rw [Ideal.div_coe (mul_pos hS hS).ne', Ideal.div_coe hS.ne']
  simp only [← EReal.coe_mul, ← EReal.coe_sub, ← EReal.coe_add]
  rfl

/-- The real identity of one row: with the softmax e_n / S, Σ_n (e_n / S - h_n)² = A / S² - 2 B / S + C. -/
theorem row_identity {N : Type*} [Fintype N] [Nonempty N] (y hR : N → ℝ) (m : ℝ) :
    ∑ n, (Real.exp (y n - m) * (1 / ∑ k, Real.exp (y k - m)) - hR n)
        * (Real.exp (y n - m) * (1 / ∑ k, Real.exp (y k - m)) - hR n) = rowR y hR := by
  have hS := sum_exp_pos y
  have hE : 0 < Real.exp m := Real.exp_pos m
  have hT : ∑ k, Real.exp (y k - m) = (∑ k, Real.exp (y k)) / Real.exp m := by
    rw [Finset.sum_div]; exact Finset.sum_congr rfl fun k _ => Real.exp_sub _ _
  have hsoft : ∀ n, Real.exp (y n - m) * (1 / ∑ k, Real.exp (y k - m))
      = Real.exp (y n) * (1 / ∑ k, Real.exp (y k)) := by
    intro n
    rw [hT, Real.exp_sub]
    field_simp
  have hsq : ∀ n, (Real.exp (y n) * (1 / ∑ k, Real.exp (y k)) - hR n)
        * (Real.exp (y n) * (1 / ∑ k, Real.exp (y k)) - hR n)
      = (Real.exp (y n) * Real.exp (y n)) * (1 / ((∑ k, Real.exp (y k)) * ∑ k, Real.exp (y k)))
        - 2 * (Real.exp (y n) * hR n) * (1 / ∑ k, Real.exp (y k)) + hR n * hR n := by
    intro n; ring
  simp only [hsoft, hsq, Finset.sum_add_distrib, Finset.sum_sub_distrib, ← Finset.sum_mul, ← Finset.mul_sum]
  rfl

/-- The direct row: the maximum is a real m, the shifted weights are exp (y_n - m) and sum to a positive real. -/
theorem reference_row {N : Type*} [Fintype N] [Nonempty N] (y hR : N → ℝ) :
    ∑ n, (Ideal.div (Ideal.exp ((y n : EReal) - max negInf ((Finset.univ : Finset N).fold max negInf fun k => (y k : EReal))))
            (zero + ∑ k, Ideal.exp ((y k : EReal) - max negInf ((Finset.univ : Finset N).fold max negInf fun k' => (y k' : EReal))))
          - (hR n : EReal))
        * (Ideal.div (Ideal.exp ((y n : EReal) - max negInf ((Finset.univ : Finset N).fold max negInf fun k => (y k : EReal))))
            (zero + ∑ k, Ideal.exp ((y k : EReal) - max negInf ((Finset.univ : Finset N).fold max negInf fun k' => (y k' : EReal))))
          - (hR n : EReal)) = (rowR y hR : EReal) := by
  obtain ⟨m, hm⟩ := rowMax_real y
  have hT : 0 < ∑ k, Real.exp (y k - m) := sum_exp_pos fun k => y k - m
  simp only [hm, zero_eq, zero_add, ← EReal.coe_sub, Ideal.exp_coe, coe_sum, Ideal.div_coe hT.ne',
    ← EReal.coe_mul]
  rw [row_identity y hR m]

/-! ## The logit of finite arrays -/

/-- The squared distance of real arrays. -/
def dR (gR : Fin 8 → Fin 262144 → Fin 3 → ℝ) (cR : Fin 8 → Fin 3 → Fin 23 → ℝ)
    (b : Fin 8) (j : Fin 23) (n : Fin 262144) : ℝ :=
  ((∑ k : Fin 3, gR b n k * gR b n k) + ∑ k : Fin 3, cR b k j * cR b k j) - 2 * ∑ k : Fin 3, cR b k j * gR b n k

/-- The logit of real arrays: 2 · exp (-d). -/
def yR (gR : Fin 8 → Fin 262144 → Fin 3 → ℝ) (cR : Fin 8 → Fin 3 → Fin 23 → ℝ)
    (b : Fin 8) (j : Fin 23) (n : Fin 262144) : ℝ :=
  Real.exp (-(dR gR cR b j n)) * 2

theorem dist2_coe (gR : Fin 8 → Fin 262144 → Fin 3 → ℝ) (cR : Fin 8 → Fin 3 → Fin 23 → ℝ)
    (b : Fin 8) (j : Fin 23) (n : Fin 262144) :
    dist2 (fun b n k => (gR b n k : EReal)) (fun b k j => (cR b k j : EReal)) b j n = (dR gR cR b j n : EReal) := by
  unfold dist2 dR
  simp only [two_eq, ← EReal.coe_mul, coe_sum, ← EReal.coe_add, ← EReal.coe_sub]

/-- The one-pass logit exp (0 - d) · 2 is the real 2 · exp (-d). -/
theorem logitK_coe (gR : Fin 8 → Fin 262144 → Fin 3 → ℝ) (cR : Fin 8 → Fin 3 → Fin 23 → ℝ)
    (b : Fin 8) (j : Fin 23) (n : Fin 262144) :
    logitK (fun b n k => (gR b n k : EReal)) (fun b k j => (cR b k j : EReal)) b j n = (yR gR cR b j n : EReal) := by
  unfold logitK yR
  rw [dist2_coe, zero_eq, zero_sub, ← EReal.coe_neg, Ideal.exp_coe, two_eq, ← EReal.coe_mul]

/-- The direct logit exp (-d) / 0.5 is the same real: dividing by one half is doubling. -/
theorem logitR_coe (gR : Fin 8 → Fin 262144 → Fin 3 → ℝ) (cR : Fin 8 → Fin 3 → Fin 23 → ℝ)
    (b : Fin 8) (j : Fin 23) (n : Fin 262144) :
    logitR (fun b n k => (gR b n k : EReal)) (fun b k j => (cR b k j : EReal)) b j n = (yR gR cR b j n : EReal) := by
  unfold logitR yR
  rw [dist2_coe, ← EReal.coe_neg, Ideal.exp_coe, half_eq, Ideal.div_coe (by norm_num), ← EReal.coe_mul]
  congr 2
  norm_num

/-! ## The law -/

/-- On arrays of finite entries each row's one-pass value is the direct sum of squared errors. -/
theorem rowLoss_eq (gR : Fin 8 → Fin 262144 → Fin 3 → ℝ) (cR : Fin 8 → Fin 3 → Fin 23 → ℝ)
    (hR : Fin 8 → Fin 23 → Fin 262144 → ℝ) (b : Fin 8) (j : Fin 23) :
    rowLoss (fun b n k => (gR b n k : EReal)) (fun b k j => (cR b k j : EReal)) (fun b j n => (hR b j n : EReal)) b j
      = ∑ n : Fin 262144,
          (soft (fun b n k => (gR b n k : EReal)) (fun b k j => (cR b k j : EReal)) b j n - (hR b j n : EReal))
          * (soft (fun b n k => (gR b n k : EReal)) (fun b k j => (cR b k j : EReal)) b j n - (hR b j n : EReal)) := by
  unfold rowLoss sumW sumWW sumWH sumHH wgt soft shifted rowMax
  simp only [logitK_coe, logitR_coe]
  exact (kernel_row (fun n => yR gR cR b j n) (fun n => hR b j n)).trans
    (reference_row (fun n => yR gR cR b j n) (fun n => hR b j n)).symm

theorem kernelLoss_eq_referenceLoss
    (g : Fin 8 → Fin 262144 → Fin 3 → EReal) (cen : Fin 8 → Fin 3 → Fin 23 → EReal)
    (h : Fin 8 → Fin 23 → Fin 262144 → EReal)
    (hg : ∀ b n k, ∃ r : ℝ, g b n k = (r : EReal)) (hc : ∀ b k j, ∃ r : ℝ, cen b k j = (r : EReal))
    (hh : ∀ b j n, ∃ r : ℝ, h b j n = (r : EReal)) :
    Cert.Spec.kernelLoss g cen h = Cert.Spec.referenceLoss g cen h := by
  choose gR hgR using hg
  choose cR hcR using hc
  choose hR hhR using hh
  have hg' : g = fun b n k => (gR b n k : EReal) := by funext b n k; exact hgR b n k
  have hc' : cen = fun b k j => (cR b k j : EReal) := by funext b k j; exact hcR b k j
  have hh' : h = fun b j n => (hR b j n : EReal) := by funext b j n; exact hhR b j n
  subst hg' hc' hh'
  unfold kernelLoss referenceLoss
  simp only [rowLoss_eq]

end Cert.Law

end
-- ==== Proof.Finite.lean ====
/-
  From the precondition to "every entry is a real".

  The precondition is the conjunction, over the four argument arrays, of "every entry x has |x| < +∞", each
  conjunct a reduction by "and" of the elementwise comparison. On the extended reals |x| = max x (-x), and
  +∞ is the float word 0x7F800000; max x (-x) < ⊤ fails at x = ⊤ and at x = ⊥, so it leaves the reals.
-/
import proofs.«132371_j57226144252798_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The result shape of a reduction over all axes has one index. -/
instance : Subsingleton S_.Idx := ⟨fun a b => funext fun d => d.elim0⟩

/-- An extended real x with max x (-x) < +∞ (the float word 0x7F800000) is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec
  · simp [Ideal.cmp] at h
  · exact ⟨_, rfl⟩
  · simp [Ideal.cmp] at h

/-- One array: if the "and" of |x| < +∞ over all its entries is 1, every entry is a real. -/
theorem real_of_all {s : Shape} {axes : List (Fin s.rank)} (x : FVec Ideal s .f32)
    (bc : S_.BroadcastsInDim s (![] : Fin 0 → Fin s.rank)) (rt : s.ReducesTo axes S_) (hu : 0 < S_.numel) (j : S_.Idx)
    (e : Host.reduce IntOp.andi (cmpf .olt (Host.absf x) (broadcastInDim s ![] bc (constant S_ .f32 0x7F800000#32)))
        (constantI S_ 1 1#1) rt hu j = 1#1) (i : s.Idx) : ∃ r : ℝ, x i = (r : EReal) :=
  real_of_abs_lt_inf (x i) (Host.reduce_andi_all _ _ rt hu j e i)

theorem real_of_finite_inputs [Cert.Pre_finite_inputs.Facts]
    (x0 x1 : FVec Ideal S8x3x23 .f32) (x2 : FVec Ideal S8x23x64x64x64 .f32) (x3 : FVec Ideal S8x262144x3 .f32)
    (hfin : Cert.Pre_finite_inputs.fn (F := Ideal) x0 x1 x2 x3 = fun _ => 1#1) :
    (∀ i, ∃ r : ℝ, x1 i = (r : EReal)) ∧ (∀ i, ∃ r : ℝ, x2 i = (r : EReal)) ∧ (∀ i, ∃ r : ℝ, x3 i = (r : EReal)) := by
  have h := congrFun hfin ValueIdx.ix0
  dsimp only [fn, fn_part1, andi] at h
  obtain ⟨h012, h3⟩ := IntOp.andi_eq_one.1 h
  obtain ⟨h01, h2⟩ := IntOp.andi_eq_one.1 h012
  obtain ⟨_, h1⟩ := IntOp.andi_eq_one.1 h01
  exact ⟨real_of_all x1 _ _ _ _ h1, real_of_all x2 _ _ _ _ h2, real_of_all x3 _ _ _ _ h3⟩

end Cert.Finite

end
-- ==== Proof.LibIdx3.lean ====
/-
  Sums over the index set of a rank-3 shape, by coordinates.
-/
import Idealize.ShloMosaic.Lib.ValueIdx

namespace Cert.LibIdx3

open Idealize.ShloMosaic Idealize.ShloMosaic.ValueIdx

/-- The indices of a rank-3 shape are the triples of coordinates. -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

/-- A sum over the indices of a rank-3 shape is the triple sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp idxEquiv3.symm f, Fintype.sum_prod_type]
  refine Finset.sum_congr rfl fun a _ => ?_
  rw [Fintype.sum_prod_type]
  rfl

end Cert.LibIdx3
-- ==== Proof.RefValue.lean ====
/-
  The direct program's result, read index by index, is the direct form of the loss.

  Each lemma reads one group of the program's stages at coordinates: the squared distance, the logit, the row
  maximum (a fold of max over the grid points), the shifted exponential, its row sum, the softmax, and last the
  total over all five axes, re-indexed along the row-major matching of [8, 23, 64, 64, 64] with [8, 23, 262144].
-/
import proofs.«132371_j57226144252798_2_alg».proof.Proof.Gen.ReferenceIdeal.Read
import proofs.«132371_j57226144252798_2_alg».proof.Proof.Spec
import proofs.«132371_j57226144252798_2_alg».proof.Proof.LibIdx3
import Idealize.ShloMosaic.Lib.ValueIdx
import Idealize.ShloMosaic.Lib.Pipeline.Value
import Idealize.ShloMosaic.PureOps.Ideal.Laws
import Idealize.ShloMosaic.PureOps.Reduce

noncomputable section

namespace Cert.RefValue

open Idealize.ShloMosaic Idealize.ShloMosaic.ValueIdx Cert.ReferenceIdeal Cert.ReferenceIdeal.Gen Cert.ReferenceIdeal.Read

variable (x1 : (⟨S8x3x23, .f32⟩ : BufTy).Contents (Elt Ideal)) (x2 : (⟨S8x23x64x64x64, .f32⟩ : BufTy).Contents (Elt Ideal))
  (x3 : (⟨S8x262144x3, .f32⟩ : BufTy).Contents (Elt Ideal))

/-- The grid points by coordinates. -/
abbrev gOf : Fin 8 → Fin 262144 → Fin 3 → EReal := fun b n k => x3 (ix3 b n k)
/-- The predicted centres by coordinates. -/
abbrev cOf : Fin 8 → Fin 3 → Fin 23 → EReal := fun b k j => x1 (ix3 b k j)

/-- The squared distance. -/
theorem dist_eq (b : Fin 8) (j : Fin 23) (n : Fin 262144) :
    val_main_v12 (F := Ideal) x1 x3 (ix3 b j n) = Cert.Spec.dist2 (gOf x3) (cOf x1) b j n := by
  rw [val_main_v12_apply, val_main_v9_apply, val_main_v7_apply, val_main_v5_apply, val_main_v1_apply,
    val_main_v8_apply, val_main_v6_apply, val_main_v3_apply, val_main_v11_apply, val_main_v10_apply,
    val_main_v4_apply, val_main_cst_apply, val_main_cst_0_apply, val_main_cst_1_apply]
  have e1 : ∀ k : Fin 3, idx_main_v1 (idx_main_v5 (idx_main_v7 (ix3 b j n))) k = ix3 b n k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b j n))) k = ix3 b k j := fun k =>
    funext fun a => Fin.ext (by match a with | ⟨0, _⟩ => rfl | ⟨1, _⟩ => rfl | ⟨2, _⟩ => rfl)
  have el : ∀ k : Fin 3, lidx_main_v4 (ix3 b j n) k = ix3 b k j := fun k =>
    funext fun a => Fin.ext (by match a with | ⟨0, _⟩ => rfl | ⟨1, _⟩ => rfl | ⟨2, _⟩ => rfl)
  have er : ∀ k : Fin 3, ridx_main_v4 (ix3 b j n) k = ix3 b n k := fun k =>
    funext fun a => Fin.ext (by match a with | ⟨0, _⟩ => rfl | ⟨1, _⟩ => rfl | ⟨2, _⟩ => rfl)
  simp only [e1, e3, el, er, val_main_v0_apply, val_main_v2_apply, Ideal.mulf_def, Ideal.addf_def, Ideal.subf_def,
    Ideal.ofBits_def]
  rw [Ideal.ofBits_zero_f32, zero_add, zero_add]
  rfl

/-- The logit: exp (-d) / 0.5. -/
theorem logit_eq (b : Fin 8) (j : Fin 23) (n : Fin 262144) :
    val_main_v16 (F := Ideal) x1 x3 (ix3 b j n) = Cert.Spec.logitR (gOf x3) (cOf x1) b j n := by
  rw [val_main_v16_apply, val_main_v14_apply, val_main_v13_apply, val_main_v15_apply, val_main_cst_2_apply, dist_eq]
  simp only [Ideal.hostDivf_def, Ideal.hostUnary_exp_def, Ideal.hostNegf_def, Ideal.negf_def, Ideal.ofBits_def]
  rfl

/-- The row maximum's fold: the reduction over the grid points read as a fold of max from -∞. -/
theorem fold_eq (b : Fin 8) (j : Fin 23) :
    val_main_v17 (F := Ideal) x1 x3 (ix2 b j)
      = (Finset.univ : Finset (Fin 262144)).fold max Cert.Spec.negInf fun n => Cert.Spec.logitR (gOf x3) (cOf x1) b j n := by
  have hR : S8x23x262144.Reduces [2] S8x23 := by decide
  unfold val_main_v17
  refine (Host.reduce_eq_fold_single FloatOps.maximumf _ _ reducesTo_S8x23x262144_S8x23_d2 hR h_S_ (ix2 b j)).trans ?_
  have hf : (val_main_v16 (F := Ideal) x1 x3 ∘ hR.lift (ix2 b j))
      = fun n => Cert.Spec.logitR (gOf x3) (cOf x1) b j n := funext fun n => by
    show val_main_v16 (F := Ideal) x1 x3 (hR.lift (ix2 b j) n) = _
    rw [show hR.lift (ix2 b j) n = ix3 b j n from
      funext fun a => Fin.ext (by match a with | ⟨0, _⟩ => rfl | ⟨1, _⟩ => rfl | ⟨2, _⟩ => rfl)]
    exact logit_eq x1 x3 b j n
  rw [hf]
  rfl

/-- The row maximum. -/
theorem rowMax_eq (b : Fin 8) (j : Fin 23) :
    val_main_v19 (F := Ideal) x1 x3 (ix2 b j) = Cert.Spec.rowMax (gOf x3) (cOf x1) b j := by
  rw [val_main_v19_apply, val_main_v18_apply, val_main_cst_4_apply, fold_eq]
  rfl

/-- exp (y - max y). -/
theorem shifted_eq (b : Fin 8) (j : Fin 23) (n : Fin 262144) :
    val_main_v23 (F := Ideal) x1 x3 (ix3 b j n) = Cert.Spec.shifted (gOf x3) (cOf x1) b j n := by
  rw [val_main_v23_apply, val_main_v22_apply, val_main_v21_apply, val_main_v20_apply, logit_eq]
  rw [show idx_main_v20 (idx_main_v21 (ix3 b j n)) = ix2 b j from
    funext fun a => Fin.ext (by match a with | ⟨0, _⟩ => rfl | ⟨1, _⟩ => rfl), rowMax_eq]
  rfl

/-- The row sum of the shifted exponentials, from the zero word. -/
theorem rowSum_eq (b : Fin 8) (j : Fin 23) :
    val_main_v24 (F := Ideal) x1 x3 (ix2 b j)
      = Cert.Spec.zero + ∑ k : Fin 262144, Cert.Spec.shifted (gOf x3) (cOf x1) b j k := by
  rw [val_main_v24_apply, val_main_cst_5_apply]
  refine congrArg₂ (· + ·) rfl (Finset.sum_congr rfl fun k _ => ?_)
  rw [show idx_main_v24 (ix2 b j) k = ix3 b j k from
    funext fun a => Fin.ext (by match a with | ⟨0, _⟩ => rfl | ⟨1, _⟩ => rfl | ⟨2, _⟩ => rfl)]
  exact shifted_eq x1 x3 b j k

/-- The softmax along the grid points. -/
theorem soft_eq (b : Fin 8) (j : Fin 23) (n : Fin 262144) :
    val_main_v27 (F := Ideal) x1 x3 (ix3 b j n) = Cert.Spec.soft (gOf x3) (cOf x1) b j n := by
  rw [val_main_v27_apply, val_main_v26_apply, val_main_v25_apply, shifted_eq]
  rw [show idx_main_v25 (idx_main_v26 (ix3 b j n)) = ix2 b j from
    funext fun a => Fin.ext (by match a with | ⟨0, _⟩ => rfl | ⟨1, _⟩ => rfl), rowSum_eq]
  rfl

/-- The heat map read through its reshape to [8, 23, 262144], by coordinates. -/
abbrev hOf (hc : S8x23x64x64x64.ShapeCasts S8x23x262144) : Fin 8 → Fin 23 → Fin 262144 → EReal :=
  fun b j n => shapeCast S8x23x262144 x2 hc (ix3 b j n)

/-- One squared error, at the rank-5 index matched with a rank-3 index: the reshape of the softmax read there is the
    softmax at the rank-3 index, the heat map read there is the reshaped heat map at the rank-3 index. -/
theorem sq_eq (hc : S8x23x64x64x64.ShapeCasts S8x23x262144) (i3 : S8x23x262144.Idx) :
    val_main_v30 (F := Ideal) x1 x2 x3 (Shape.reshapeEquiv hc i3)
      = (val_main_v27 (F := Ideal) x1 x3 i3 - shapeCast S8x23x262144 x2 hc i3)
          * (val_main_v27 (F := Ideal) x1 x3 i3 - shapeCast S8x23x262144 x2 hc i3) := by
  have h28 : val_main_v28 (F := Ideal) x1 x3 (Shape.reshapeEquiv hc i3) = val_main_v27 (F := Ideal) x1 x3 i3 := by
    show val_main_v27 (F := Ideal) x1 x3 (Shape.reshapeEquiv shapeCasts_S8x23x262144_S8x23x64x64x64 (Shape.reshapeEquiv hc i3)) = _
    exact congrArg _ ((Shape.reshapeEquiv_reshapeEquiv _ _ i3).trans (Shape.reshapeEquiv_self _ i3))
  rw [val_main_v30_apply, val_main_v29_apply, h28]
  rfl

/-- The total of the squared errors, from the zero word, by coordinates. -/
theorem total_eq (hc : S8x23x64x64x64.ShapeCasts S8x23x262144) (i : S_.Idx) :
    val_main_v31 (F := Ideal) x1 x2 x3 i
      = Cert.Spec.zero + ∑ b : Fin 8, ∑ j : Fin 23, ∑ n : Fin 262144,
          (Cert.Spec.soft (gOf x3) (cOf x1) b j n - hOf x2 hc b j n) * (Cert.Spec.soft (gOf x3) (cOf x1) b j n - hOf x2 hc b j n) := by
  rw [val_main_v31_apply, val_main_cst_6_apply]
  refine congrArg₂ (· + ·) rfl ?_
  rw [← Equiv.sum_comp (Shape.reshapeEquiv hc) (val_main_v30 (F := Ideal) x1 x2 x3)]
  rw [Cert.LibIdx3.sum_idx3]
  refine Finset.sum_congr rfl fun b _ => Finset.sum_congr rfl fun j _ => Finset.sum_congr rfl fun n _ => ?_
  rw [sq_eq, soft_eq]

/-- The direct program's result is the direct form of the loss. -/
theorem result_eq
    (x1 : (⟨S8x3x23, .f32⟩ : BufTy).Contents (Elt Ideal)) (x2 : (⟨S8x23x64x64x64, .f32⟩ : BufTy).Contents (Elt Ideal))
    (x3 : (⟨S8x262144x3, .f32⟩ : BufTy).Contents (Elt Ideal)) (hc : S8x23x64x64x64.ShapeCasts S8x23x262144) (i : S_.Idx) :
    Cert.ReferenceIdeal.Read.val_main_v33 (F := Ideal) x1 x2 x3 i
      = Cert.Spec.referenceLoss (fun b n k => x3 (ix3 b n k)) (fun b k j => x1 (ix3 b k j))
          (fun b j n => shapeCast S8x23x262144 x2 hc (ix3 b j n)) := by
  rw [val_main_v33_apply, val_main_v32_apply, val_main_cst_8_apply, val_main_cst_7_apply, total_eq x1 x2 x3 hc i]
  rfl

end Cert.RefValue

end
-- ==== Proof.KernelPieces.lean ====
/-
  What one run of the kernel body leaves in its buffers, as values.

  The body keeps four per-joint accumulators in scratch memory. At the first tile of a batch it stores zero columns
  into them and then adds the tile's sums; at every later tile it adds the tile's sums to what the tile before left;
  at the last tile it also copies the four accumulators into the four output blocks. Each lemma below states one
  buffer's contents after the body, in one of these three situations, as a function of the input blocks and of what
  the accumulators held before.
-/
import proofs.«132371_j57226144252798_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

theorem hz : (![0, 0, 0] : Fin 3 → Nat) = fun _ => 0 := funext fun a => by fin_cases a <;> rfl

variable (c : Dev nD) (i : grid0.Coords)
  (arg2 : Memref sig .tc .vmem S1x3x32768 .f32) (harg2 : arg2.IsWhole) (arg3 : Memref sig .tc .vmem S1x3x23 .f32) (harg3 : arg3.IsWhole)
  (arg4 : Memref sig .tc .vmem S1x23x32768 .f32) (harg4 : arg4.IsWhole) (arg5 : Memref sig .tc .vmem S1x23x1 .f32) (harg5 : arg5.IsWhole)
  (arg6 : Memref sig .tc .vmem S1x23x1 .f32) (harg6 : arg6.IsWhole) (arg7 : Memref sig .tc .vmem S1x23x1 .f32) (harg7 : arg7.IsWhole)
  (arg8 : Memref sig .tc .vmem S1x23x1 .f32) (harg8 : arg8.IsWhole) (arg9 : Memref sig .tc .vmem S1x23x1 .f32) (harg9 : arg9.IsWhole)
  (arg10 : Memref sig .tc .vmem S1x23x1 .f32) (harg10 : arg10.IsWhole) (arg11 : Memref sig .tc .vmem S1x23x1 .f32) (harg11 : arg11.IsWhole)
  (arg12 : Memref sig .tc .vmem S1x23x1 .f32) (harg12 : arg12.IsWhole)
  (x0 : Vec F S1x3x32768 .f32) (x1 : Vec F S1x3x23 .f32) (x2 : Vec F S1x23x32768 .f32)
  (xs0 xs1 xs2 xs3 : Vec F S1x23x1 .f32)

/-! ## The first tile of a batch: the accumulators restart from zero columns -/

/-- At a batch's first tile the accumulator of the weights ends at the zero column plus the tile's sum. -/
theorem first_0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 hc0 hc1 x0 x1 x2 = k0_pay8 (k0_pay6 x0 x1) (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  first
    | rw [View.canon_cons_unit_zero (S := S1x23x1) hz]
    | rw [View.canon_unit_zero hz]
  simp only [View.readCov_unit_zero (S := S1x23x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x3x32768) hz, View.ld_unit_zero (S := S1x3x23) hz, View.ld_unit_zero (S := S1x23x32768) hz, View.ld_unit_zero (S := S1x23x1) hz]

/-- At a batch's first tile the accumulator of the squared weights ends at the zero column plus the tile's sum. -/
theorem first_1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 hc0 hc1 x0 x1 x2 = k0_pay9 (k0_pay6 x0 x1) (k0_pay3 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  first
    | rw [View.canon_cons_unit_zero (S := S1x23x1) hz]
    | rw [View.canon_unit_zero hz]
  simp only [View.readCov_unit_zero (S := S1x23x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x3x32768) hz, View.ld_unit_zero (S := S1x3x23) hz, View.ld_unit_zero (S := S1x23x32768) hz, View.ld_unit_zero (S := S1x23x1) hz]

/-- At a batch's first tile the accumulator of the weights times the heat map ends at the zero column plus the tile's sum. -/
theorem first_2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 hc0 hc1 x0 x1 x2 = k0_pay10 (k0_pay6 x0 x1) x2 (k0_pay4 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  first
    | rw [View.canon_cons_unit_zero (S := S1x23x1) hz]
    | rw [View.canon_unit_zero hz]
  simp only [View.readCov_unit_zero (S := S1x23x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x3x32768) hz, View.ld_unit_zero (S := S1x3x23) hz, View.ld_unit_zero (S := S1x23x32768) hz, View.ld_unit_zero (S := S1x23x1) hz]

/-- At a batch's first tile the accumulator of the squared heat map ends at the zero column plus the tile's sum. -/
theorem first_3 (hc0 : cond0_0 i) (hc1 : ¬cond0_1 i) :
    sout0_A_3 c i arg2 harg2 arg3 harg3 arg4 harg4 arg5 harg5 arg6 harg6 arg7 harg7 arg8 harg8 arg9 harg9 arg10 harg10 arg11 harg11 arg12 harg12 hc0 hc1 x0 x1 x2 = k0_pay1 (k0_pay11 x2 (k0_pay5 (F := F))) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 hc0 hc1 x0 x1 x2)]
  unfold kernelRun0_A
  dsimp only
  sl_unfold_words
  first
    | rw [View.canon_cons_unit_zero (S := S1x23x1) hz]
    | rw [View.canon_unit_zero hz]
  simp only [View.readCov_unit_zero (S := S1x23x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x3x32768) hz, View.ld_unit_zero (S := S1x3x23) hz, View.ld_unit_zero (S := S1x23x32768) hz, View.ld_unit_zero (S := S1x23x1) hz]

/-! ## A middle tile: each accumulator gains the tile's sum -/

/-- At a middle tile the accumulator of the weights ends at what it held plus the tile's sum. -/
theorem middle_0 (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = k0_pay8 (k0_pay6 x0 x1) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_B
  dsimp only
  sl_unfold_words
  first
    | rw [View.canon_cons_unit_zero (S := S1x23x1) hz]
    | rw [View.canon_unit_zero hz]
  simp only [View.readCov_unit_zero (S := S1x23x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x3x32768) hz, View.ld_unit_zero (S := S1x3x23) hz, View.ld_unit_zero (S := S1x23x32768) hz, View.ld_unit_zero (S := S1x23x1) hz]

/-- At a middle tile the accumulator of the squared weights ends at what it held plus the tile's sum. -/
theorem middle_1 (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = k0_pay9 (k0_pay6 x0 x1) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_B
  dsimp only
  sl_unfold_words
  first
    | rw [View.canon_cons_unit_zero (S := S1x23x1) hz]
    | rw [View.canon_unit_zero hz]
  simp only [View.readCov_unit_zero (S := S1x23x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x3x32768) hz, View.ld_unit_zero (S := S1x3x23) hz, View.ld_unit_zero (S := S1x23x32768) hz, View.ld_unit_zero (S := S1x23x1) hz]

/-- At a middle tile the accumulator of the weights times the heat map ends at what it held plus the tile's sum. -/
theorem middle_2 (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = k0_pay10 (k0_pay6 x0 x1) x2 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_B
  dsimp only
  sl_unfold_words
  first
    | rw [View.canon_cons_unit_zero (S := S1x23x1) hz]
    | rw [View.canon_unit_zero hz]
  simp only [View.readCov_unit_zero (S := S1x23x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x3x32768) hz, View.ld_unit_zero (S := S1x3x23) hz, View.ld_unit_zero (S := S1x23x32768) hz, View.ld_unit_zero (S := S1x23x1) hz]

/-- At a middle tile the accumulator of the squared heat map ends at what it held plus the tile's sum. -/
theorem middle_3 (hc0 : ¬cond0_0 i) (hc1 : ¬cond0_1 i) :
    sout0_B_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = k0_pay1 (k0_pay11 x2 xs3) := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_B
  dsimp only
  sl_unfold_words
  first
    | rw [View.canon_cons_unit_zero (S := S1x23x1) hz]
    | rw [View.canon_unit_zero hz]
  simp only [View.readCov_unit_zero (S := S1x23x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x3x32768) hz, View.ld_unit_zero (S := S1x3x23) hz, View.ld_unit_zero (S := S1x23x32768) hz, View.ld_unit_zero (S := S1x23x1) hz]

/-! ## The last tile of a batch: the same update, and the accumulators are copied to the outputs -/

/-- At a batch's last tile the accumulator of the weights ends at what it held plus the tile's sum. -/
theorem last_0 (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = k0_pay8 (k0_pay6 x0 x1) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_C
  dsimp only
  sl_unfold_words
  first
    | rw [View.canon_cons_unit_zero (S := S1x23x1) hz]
    | rw [View.canon_unit_zero hz]
  simp only [View.readCov_unit_zero (S := S1x23x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x3x32768) hz, View.ld_unit_zero (S := S1x3x23) hz, View.ld_unit_zero (S := S1x23x32768) hz, View.ld_unit_zero (S := S1x23x1) hz]

/-- At a batch's last tile the accumulator of the squared weights ends at what it held plus the tile's sum. -/
theorem last_1 (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = k0_pay9 (k0_pay6 x0 x1) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_C
  dsimp only
  sl_unfold_words
  first
    | rw [View.canon_cons_unit_zero (S := S1x23x1) hz]
    | rw [View.canon_unit_zero hz]
  simp only [View.readCov_unit_zero (S := S1x23x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x3x32768) hz, View.ld_unit_zero (S := S1x3x23) hz, View.ld_unit_zero (S := S1x23x32768) hz, View.ld_unit_zero (S := S1x23x1) hz]

/-- At a batch's last tile the accumulator of the weights times the heat map ends at what it held plus the tile's sum. -/
theorem last_2 (hc0 : ¬cond0_0 i) (hc1 : cond0_1 i) :
    sout0_C_2 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = k0_pay10 (k0_pay6 x0 x1) x2 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_C
  dsimp only
  sl_unfold_words
  first
    | rw [View.canon_cons_unit_zero (S := S1x23x1) hz]
    | rw [View.canon_unit_zero hz]
  simp only [View.readCov_unit_zero (S := S1x23x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x3x32768) hz, View.ld_unit_zero (S := S1x3x23) hz, View.ld_unit_zero (S := S1x23x32768) hz, View.ld_unit_zero (S := S1x23x1) hz]

/-- At a batch's last tile the accumulator of the squared heat map ends at what it held plus the tile's sum. -/
theorem last_3 (hc0 : ¬cond0_0 i) (hc1 : cond0_1 i) :
    sout0_C_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = k0_pay1 (k0_pay11 x2 xs3) := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_C
  dsimp only
  sl_unfold_words
  first
    | rw [View.canon_cons_unit_zero (S := S1x23x1) hz]
    | rw [View.canon_unit_zero hz]
  simp only [View.readCov_unit_zero (S := S1x23x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x3x32768) hz, View.ld_unit_zero (S := S1x3x23) hz, View.ld_unit_zero (S := S1x23x32768) hz, View.ld_unit_zero (S := S1x23x1) hz]

/-- At a batch's last tile output block 0 receives the updated accumulator of the weights. -/
theorem last_out_0 (hc0 : ¬cond0_0 i) (hc1 : cond0_1 i) :
    out0_C_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = k0_pay8 (k0_pay6 x0 x1) xs0 := by
  unfold out0_C_3
  rw [View.read_writes_eq_canon _ _ _ (cover0_C_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_C
  dsimp only
  sl_unfold_words
  first
    | rw [View.canon_cons_unit_zero (S := S1x23x1) hz]
    | rw [View.canon_unit_zero hz]
  simp only [View.readCov_unit_zero (S := S1x23x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x3x32768) hz, View.ld_unit_zero (S := S1x3x23) hz, View.ld_unit_zero (S := S1x23x32768) hz, View.ld_unit_zero (S := S1x23x1) hz]

/-- At a batch's last tile output block 1 receives the updated accumulator of the squared weights. -/
theorem last_out_1 (hc0 : ¬cond0_0 i) (hc1 : cond0_1 i) :
    out0_C_4 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = k0_pay9 (k0_pay6 x0 x1) xs1 := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_C
  dsimp only
  sl_unfold_words
  first
    | rw [View.canon_cons_unit_zero (S := S1x23x1) hz]
    | rw [View.canon_unit_zero hz]
  simp only [View.readCov_unit_zero (S := S1x23x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x3x32768) hz, View.ld_unit_zero (S := S1x3x23) hz, View.ld_unit_zero (S := S1x23x32768) hz, View.ld_unit_zero (S := S1x23x1) hz]

/-- At a batch's last tile output block 2 receives the updated accumulator of the weights times the heat map. -/
theorem last_out_2 (hc0 : ¬cond0_0 i) (hc1 : cond0_1 i) :
    out0_C_5 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = k0_pay10 (k0_pay6 x0 x1) x2 xs2 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_C
  dsimp only
  sl_unfold_words
  first
    | rw [View.canon_cons_unit_zero (S := S1x23x1) hz]
    | rw [View.canon_unit_zero hz]
  simp only [View.readCov_unit_zero (S := S1x23x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x3x32768) hz, View.ld_unit_zero (S := S1x3x23) hz, View.ld_unit_zero (S := S1x23x32768) hz, View.ld_unit_zero (S := S1x23x1) hz]

/-- At a batch's last tile output block 3 receives the updated accumulator of the squared heat map. -/
theorem last_out_3 (hc0 : ¬cond0_0 i) (hc1 : cond0_1 i) :
    out0_C_6 c i arg2 harg2 arg3 harg3 arg4 harg4 arg5 harg5 arg6 harg6 arg7 harg7 arg8 harg8 arg9 harg9 arg10 harg10 arg11 harg11 arg12 harg12 hc0 hc1 x0 x1 x2 xs0 xs1 xs2 xs3 = k0_pay1 (k0_pay11 x2 xs3) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 hc0 hc1 x0 x1 x2 xs0 xs1 xs2 xs3)]
  unfold kernelRun0_C
  dsimp only
  sl_unfold_words
  first
    | rw [View.canon_cons_unit_zero (S := S1x23x1) hz]
    | rw [View.canon_unit_zero hz]
  simp only [View.readCov_unit_zero (S := S1x23x1) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x3x32768) hz, View.ld_unit_zero (S := S1x3x23) hz, View.ld_unit_zero (S := S1x23x32768) hz, View.ld_unit_zero (S := S1x23x1) hz]

end Cert.KernelIdeal.Pieces

end
-- ==== Proof.KernelOps.lean ====
/-
  The layout operations and lane sums of the kernel body, each read at an entry given by explicit coordinates.

  The body works on blocks with a leading unit axis: a block of grid points [1, 3, T] (coordinate, point), the centres
  [1, 3, 23] (coordinate, joint), weights and heat maps [1, 23, T] (joint, point), and per-joint columns [1, 23, 1].
  Every lemma says which entry of its operand one entry of the result is: a transpose swaps the last two
  coordinates, a slice of width one picks a fixed coordinate, a broadcast along an axis forgets that coordinate, a
  cast that inserts a unit axis forgets the unit coordinate, and a sum along an axis is the sum over that axis's
  coordinates.
-/
import proofs.«132371_j57226144252798_2_alg».proof.KernelIdeal
import Idealize.ShloMosaic.Lib.Pipeline.Value
import Idealize.ShloMosaic.Lib.ValueIdx
import Idealize.ShloMosaic.PureOps.Ideal.Laws

noncomputable section

namespace Cert.KernelIdeal.Ops

open Idealize.ShloMosaic Idealize.ShloMosaic.ValueIdx Cert.KernelIdeal

variable {α : Type}

/-- The transposed centres: entry (joint j, coordinate k) is the centres' entry (coordinate k, joint j). -/
theorem transpose_centres (x : S1x3x23.Idx → α) (h : S1x3x23.Transposes [0, 2, 1] S1x23x3) (a : Fin 1) (j : Fin 23) (k : Fin 3) :
    transpose S1x23x3 [0, 2, 1] x h (ix3 a j k) = x (ix3 a k j) :=
  transpose_apply [0, 2, 1] x h (ix3 a j k) (ix3 a k j)
    (fun b => by match b with | ⟨0, _⟩ => rfl | ⟨1, _⟩ => rfl | ⟨2, _⟩ => rfl)

/-- A width-one slice of the transposed centres at coordinate `d`: the column of that coordinate. -/
theorem slice_centre_coord (d : Fin 3) (off : Fin 3 → Nat) (hoff : off = ![0, 0, d.val]) (x : S1x23x3.Idx → α)
    (h : S1x23x3.Slices off S1x23x1) (a : Fin 1) (j : Fin 23) (u : Fin 1) :
    extractStridedSlice S1x23x1 off x h (ix3 a j u) = x (ix3 a j d) := by
  subst hoff
  refine extractStridedSlice_apply _ x h (ix3 a j u) (ix3 a j d) (fun b => ?_)
  have hu : u.val = 0 := by omega
  match b with
  | ⟨0, _⟩ => show a.val = 0 + a.val; omega
  | ⟨1, _⟩ => show j.val = 0 + j.val; omega
  | ⟨2, _⟩ => show d.val = d.val + u.val; omega

/-- A width-one slice of the grid block at coordinate `d`: the row of that coordinate. -/
theorem slice_grid_coord {T : Nat} (d : Fin 3) (off : Fin 3 → Nat) (hoff : off = ![0, d.val, 0])
    (x : (⟨3, ![1, 3, T]⟩ : Shape).Idx → α) (h : (⟨3, ![1, 3, T]⟩ : Shape).Slices off ⟨3, ![1, 1, T]⟩) (a : Fin 1) (u : Fin 1) (q : Fin T) :
    extractStridedSlice ⟨3, ![1, 1, T]⟩ off x h (ix3 a u q) = x (ix3 a d q) := by
  subst hoff
  refine extractStridedSlice_apply _ x h (ix3 a u q) (ix3 a d q) (fun b => ?_)
  have hu : u.val = 0 := by omega
  match b with
  | ⟨0, _⟩ => show a.val = 0 + a.val; omega
  | ⟨1, _⟩ => show d.val = d.val + u.val; omega
  | ⟨2, _⟩ => show q.val = 0 + q.val; omega

/-- A per-joint column broadcast along the points: entry (j, q) is the column's entry j. -/
theorem broadcast_column {T : Nat} (hT : T ≠ 1) (x : S1x23x1.Idx → α) (h : S1x23x1.Broadcasts ⟨3, ![1, 23, T]⟩) (a : Fin 1) (j : Fin 23) (q : Fin T) (u : Fin 1) :
    broadcastTo ⟨3, ![1, 23, T]⟩ x h (ix3 a j q) = x (ix3 a j u) := by
  refine broadcastTo_apply x h (ix3 a j q) (ix3 a j u) (fun b => ?_)
  have hu : u.val = 0 := by omega
  have ha : a.val = 0 := by omega
  match b with
  | ⟨0, _⟩ => show a.val = if (1 : Nat) = 1 then 0 else _; rw [if_pos rfl]; exact ha
  | ⟨1, _⟩ => show j.val = if (23 : Nat) = 1 then 0 else j.val; rw [if_neg (by decide)]
  | ⟨2, _⟩ => show u.val = if (1 : Nat) = 1 then 0 else _; rw [if_pos rfl]; exact hu

/-- A per-point row broadcast along the joints: entry (j, q) is the row's entry q. -/
theorem broadcast_row {T : Nat} (hT : T ≠ 1) (x : (⟨3, ![1, 1, T]⟩ : Shape).Idx → α) (h : (⟨3, ![1, 1, T]⟩ : Shape).Broadcasts ⟨3, ![1, 23, T]⟩)
    (a : Fin 1) (j : Fin 23) (q : Fin T) (u : Fin 1) :
    broadcastTo ⟨3, ![1, 23, T]⟩ x h (ix3 a j q) = x (ix3 a u q) := by
  refine broadcastTo_apply x h (ix3 a j q) (ix3 a u q) (fun b => ?_)
  have hu : u.val = 0 := by omega
  have ha : a.val = 0 := by omega
  match b with
  | ⟨0, _⟩ => show a.val = if (1 : Nat) = 1 then 0 else _; rw [if_pos rfl]; exact ha
  | ⟨1, _⟩ => show u.val = if (1 : Nat) = 1 then 0 else _; rw [if_pos rfl]; exact hu
  | ⟨2, _⟩ => show q.val = if T = 1 then 0 else q.val; rw [if_neg hT]

/-- A per-point row [1, T] cast to [1, 1, T]: entry (u, q) is the row's entry q. -/
theorem cast_row {T : Nat} (x : (⟨2, ![1, T]⟩ : Shape).Idx → α) (h : (⟨2, ![1, T]⟩ : Shape).ShapeCasts ⟨3, ![1, 1, T]⟩) (a : Fin 1) (u : Fin 1) (q : Fin T) :
    shapeCast ⟨3, ![1, 1, T]⟩ x h (ix3 a u q) = x (ix2 a q) := by
  refine shapeCast_apply x h (ix3 a u q) (ix2 a q) ?_
  rw [Shape.rowMajor_val_two, Shape.rowMajor_val_three]
  have hu : u.val = 0 := by omega
  have ha : a.val = 0 := by omega
  show a.val * T + q.val = (a.val * 1 + u.val) * T + q.val
  rw [ha, hu]

/-- A per-joint row [1, 23] cast to the column [1, 23, 1]: entry (j, u) is the row's entry j. -/
theorem cast_column (x : S1x23.Idx → α) (h : S1x23.ShapeCasts S1x23x1) (a : Fin 1) (j : Fin 23) (u : Fin 1) :
    shapeCast S1x23x1 x h (ix3 a j u) = x (ix2 a j) := by
  refine shapeCast_apply x h (ix3 a j u) (ix2 a j) ?_
  rw [Shape.rowMajor_val_two, Shape.rowMajor_val_three]
  have hu : u.val = 0 := by omega
  show a.val * 23 + j.val = (a.val * 23 + j.val) * 1 + u.val
  omega

/-- The sum of a grid block [1, 3, T] along the coordinates, at point q. -/
theorem sum_coords_grid {T : Nat} (v : FVec Ideal ⟨3, ![1, 3, T]⟩ .f32) (h : (⟨3, ![1, 3, T]⟩ : Shape).Reduces [1] ⟨2, ![1, T]⟩)
    (hφ : FKind.Formats .f32) (hacc : (0x00000000#32 : BitVec 32) = FKind.add.neutral .f32 hφ) (a : Fin 1) (q : Fin T) :
    multiReduction .add [1] ⟨2, ![1, T]⟩ v 0x00000000#32 h hφ hacc (ix2 a q) = ∑ k : Fin 3, v (ix3 a k q) :=
  (Ideal.multiReduction_add_single v _ h hφ hacc (ix2 a q)).trans
    (Finset.sum_congr rfl fun k _ => congrArg v
      (funext fun d => Fin.ext (by match d with | ⟨0, _⟩ => rfl | ⟨1, _⟩ => rfl | ⟨2, _⟩ => rfl)))

/-- The sum of the squared transposed centres [1, 23, 3] along the coordinates, at joint j. -/
theorem sum_coords_centres (v : FVec Ideal S1x23x3 .f32) (h : S1x23x3.Reduces [2] S1x23)
    (hφ : FKind.Formats .f32) (hacc : (0x00000000#32 : BitVec 32) = FKind.add.neutral .f32 hφ) (a : Fin 1) (j : Fin 23) :
    multiReduction .add [2] S1x23 v 0x00000000#32 h hφ hacc (ix2 a j) = ∑ k : Fin 3, v (ix3 a j k) :=
  (Ideal.multiReduction_add_single v _ h hφ hacc (ix2 a j)).trans
    (Finset.sum_congr rfl fun k _ => congrArg v
      (funext fun d => Fin.ext (by match d with | ⟨0, _⟩ => rfl | ⟨1, _⟩ => rfl | ⟨2, _⟩ => rfl)))

/-- The sum of a block [1, 23, T] along the points, at joint j. -/
theorem sum_points {T : Nat} (v : FVec Ideal ⟨3, ![1, 23, T]⟩ .f32) (h : (⟨3, ![1, 23, T]⟩ : Shape).Reduces [2] S1x23)
    (hφ : FKind.Formats .f32) (hacc : (0x00000000#32 : BitVec 32) = FKind.add.neutral .f32 hφ) (a : Fin 1) (j : Fin 23) :
    multiReduction .add [2] S1x23 v 0x00000000#32 h hφ hacc (ix2 a j) = ∑ q : Fin T, v (ix3 a j q) :=
  (Ideal.multiReduction_add_single v _ h hφ hacc (ix2 a j)).trans
    (Finset.sum_congr rfl fun k _ => congrArg v
      (funext fun d => Fin.ext (by match d with | ⟨0, _⟩ => rfl | ⟨1, _⟩ => rfl | ⟨2, _⟩ => rfl)))

end Cert.KernelIdeal.Ops

end
-- ==== Proof.KernelBlock.lean ====
/-
  The kernel body's arithmetic at the exact extended reals, read at an entry.

  At one grid point the body sees a block of grid points (coordinate k, point q), the centres of the batch
  (coordinate k, joint j) and a block of heat maps (joint j, point q). It forms, for every joint and point, the
  squared distance |g|² + |c|² - 2 g·c and the weight exp (2 · exp (-d)), and adds to each of four per-joint
  accumulators the block's sum over its points of: the weights, their squares, their products with the heat map, and
  the heat map's squares.
-/
import proofs.«132371_j57226144252798_2_alg».proof.Proof.Gen.KernelIdeal.Skeleton
import proofs.«132371_j57226144252798_2_alg».proof.Proof.KernelOps

noncomputable section

namespace Cert.KernelIdeal.Block

open Idealize.ShloMosaic Idealize.ShloMosaic.ValueIdx Cert.KernelIdeal Cert.KernelIdeal.Gen Cert.KernelIdeal.Ops

/-- The pointwise exponential of a vector, at an entry. -/
theorem exp_apply {s : Shape} (v : FVec Ideal s .f32) (i : s.Idx) : exp v i = Ideal.exp (v i) := rfl

variable (x0 : FVec Ideal S1x3x32768 .f32) (x1 : FVec Ideal S1x3x23 .f32) (x2 : FVec Ideal S1x23x32768 .f32)

/-- The squared distance from point `q` of the grid block to centre `j`: |g|² + |c|² - 2 g·c. -/
def dist2 (a : Fin 1) (j : Fin 23) (q : Fin 32768) : EReal :=
  ((∑ k : Fin 3, x0 (ix3 a k q) * x0 (ix3 a k q)) + ∑ k : Fin 3, x1 (ix3 a k j) * x1 (ix3 a k j))
    - Ideal.ofBits .f32 0x40000000#32 * ∑ k : Fin 3, x1 (ix3 a k j) * x0 (ix3 a k q)

/-- The weight exp (2 · exp (-d)) of point `q` for centre `j`. -/
def wgt (a : Fin 1) (j : Fin 23) (q : Fin 32768) : EReal :=
  Ideal.exp (Ideal.exp (Ideal.ofBits .f32 0x00000000#32 - dist2 x0 x1 a j q) * Ideal.ofBits .f32 0x40000000#32)

/-- The body's weights block holds, at (j, q), the weight of point `q` for centre `j`. -/
theorem weights_apply (a : Fin 1) (j : Fin 23) (q : Fin 32768) :
    k0_pay6 (F := Ideal) x0 x1 (ix3 a j q) = wgt x0 x1 a j q := by
  have hg : ∀ (h : S1x3x32768.Reduces [1] S1x32768) (hφ : FKind.Formats .f32) (hacc : (0x00000000#32 : BitVec 32) = FKind.add.neutral .f32 hφ),
      multiReduction .add [1] S1x32768 (mulf x0 x0) 0x00000000#32 h hφ hacc (ix2 a q)
        = ∑ k : Fin 3, x0 (ix3 a k q) * x0 (ix3 a k q) :=
    fun h hφ hacc => sum_coords_grid (T := 32768) (mulf x0 x0) h hφ hacc a q
  have hc : ∀ (ht : S1x3x23.Transposes [0, 2, 1] S1x23x3) (h : S1x23x3.Reduces [2] S1x23) (hφ : FKind.Formats .f32)
      (hacc : (0x00000000#32 : BitVec 32) = FKind.add.neutral .f32 hφ),
      multiReduction .add [2] S1x23 (mulf (transpose S1x23x3 [0, 2, 1] x1 ht) (transpose S1x23x3 [0, 2, 1] x1 ht)) 0x00000000#32 h hφ hacc (ix2 a j)
        = ∑ k : Fin 3, x1 (ix3 a k j) * x1 (ix3 a k j) :=
    fun ht h hφ hacc => (sum_coords_centres _ h hφ hacc a j).trans
      (Finset.sum_congr rfl fun k _ => by rw [mulf_apply, transpose_centres])
  unfold k0_pay6 wgt dist2
  simp only [exp_apply, mulf_apply, addf_apply, subf_apply, broadcast_apply, shapeCast_self, Ideal.ofBits_def,
    broadcast_column (T := 32768) (by decide) _ _ a j q (0 : Fin 1),
    broadcast_row (T := 32768) (by decide) _ _ a j q (0 : Fin 1),
    cast_row, cast_column,
    slice_centre_coord 0 ![0, 0, 0] rfl, slice_centre_coord 1 ![0, 0, 1] rfl, slice_centre_coord 2 ![0, 0, 2] rfl,
    slice_grid_coord 0 ![0, 0, 0] rfl, slice_grid_coord 1 ![0, 1, 0] rfl, slice_grid_coord 2 ![0, 2, 0] rfl,
    transpose_centres x1 _ a j 0, transpose_centres x1 _ a j 1, transpose_centres x1 _ a j 2]
  refine congrArg (fun z => Ideal.exp (Ideal.exp (Ideal.ofBits .f32 0x00000000#32 - z) * Ideal.ofBits .f32 0x40000000#32)) ?_
  exact congrArg₂ (· - ·) (congrArg₂ (· + ·) (hg _ _ _) (hc _ _ _ _))
    (congrArg (Ideal.ofBits .f32 0x40000000#32 * ·) (Fin.sum_univ_three fun k => x1 (ix3 a k j) * x0 (ix3 a k q)).symm)

variable (e : FVec Ideal S1x23x32768 .f32) (xs : FVec Ideal S1x23x1 .f32)

/-- The zero columns the first point of a batch stores into the four accumulators. -/
theorem zero_column_apply (a : Fin 1) (j : Fin 23) (u : Fin 1) :
    k0_pay2 (F := Ideal) (ix3 a j u) = Ideal.ofBits .f32 0x00000000#32
    ∧ k0_pay3 (F := Ideal) (ix3 a j u) = Ideal.ofBits .f32 0x00000000#32
    ∧ k0_pay4 (F := Ideal) (ix3 a j u) = Ideal.ofBits .f32 0x00000000#32
    ∧ k0_pay5 (F := Ideal) (ix3 a j u) = Ideal.ofBits .f32 0x00000000#32 := by
  unfold k0_pay2 k0_pay3 k0_pay4 k0_pay5
  simp only [shapeCast_self, broadcast_apply, Ideal.ofBits_def, and_self]

/-- The accumulator of the weights after a point: what it held plus the block's weights summed over the points. -/
theorem accW_apply (a : Fin 1) (j : Fin 23) (u : Fin 1) :
    k0_pay8 (F := Ideal) e xs (ix3 a j u) = xs (ix3 a j u) + ∑ q : Fin 32768, e (ix3 a j q) := by
  have hs : ∀ (h : S1x23x32768.Reduces [2] S1x23) (hφ : FKind.Formats .f32) (hacc : (0x00000000#32 : BitVec 32) = FKind.add.neutral .f32 hφ),
      multiReduction .add [2] S1x23 e 0x00000000#32 h hφ hacc (ix2 a j) = ∑ q : Fin 32768, e (ix3 a j q) :=
    fun h hφ hacc => sum_points (T := 32768) e h hφ hacc a j
  unfold k0_pay8
  simp only [shapeCast_self, addf_apply, cast_column]
  exact congrArg (xs (ix3 a j u) + ·) (hs _ _ _)

/-- The accumulator of the squared weights after a point. -/
theorem accWW_apply (a : Fin 1) (j : Fin 23) (u : Fin 1) :
    k0_pay9 (F := Ideal) e xs (ix3 a j u) = xs (ix3 a j u) + ∑ q : Fin 32768, e (ix3 a j q) * e (ix3 a j q) := by
  have hs : ∀ (h : S1x23x32768.Reduces [2] S1x23) (hφ : FKind.Formats .f32) (hacc : (0x00000000#32 : BitVec 32) = FKind.add.neutral .f32 hφ),
      multiReduction .add [2] S1x23 (mulf e e) 0x00000000#32 h hφ hacc (ix2 a j) = ∑ q : Fin 32768, e (ix3 a j q) * e (ix3 a j q) :=
    fun h hφ hacc => sum_points (T := 32768) (mulf e e) h hφ hacc a j
  unfold k0_pay9
  simp only [shapeCast_self, addf_apply, cast_column]
  exact congrArg (xs (ix3 a j u) + ·) (hs _ _ _)

/-- The accumulator of the weights times the heat map after a point. -/
theorem accWH_apply (a : Fin 1) (j : Fin 23) (u : Fin 1) :
    k0_pay10 (F := Ideal) e x2 xs (ix3 a j u) = xs (ix3 a j u) + ∑ q : Fin 32768, e (ix3 a j q) * x2 (ix3 a j q) := by
  have hs : ∀ (h : S1x23x32768.Reduces [2] S1x23) (hφ : FKind.Formats .f32) (hacc : (0x00000000#32 : BitVec 32) = FKind.add.neutral .f32 hφ),
      multiReduction .add [2] S1x23 (mulf e x2) 0x00000000#32 h hφ hacc (ix2 a j) = ∑ q : Fin 32768, e (ix3 a j q) * x2 (ix3 a j q) :=
    fun h hφ hacc => sum_points (T := 32768) (mulf e x2) h hφ hacc a j
  unfold k0_pay10 k0_pay7
  simp only [shapeCast_self, addf_apply, cast_column]
  exact congrArg (xs (ix3 a j u) + ·) (hs _ _ _)

/-- The accumulator of the squared heat map after a point. -/
theorem accHH_apply (a : Fin 1) (j : Fin 23) (u : Fin 1) :
    k0_pay1 (F := Ideal) (k0_pay11 (F := Ideal) x2 xs) (ix3 a j u) = xs (ix3 a j u) + ∑ q : Fin 32768, x2 (ix3 a j q) * x2 (ix3 a j q) := by
  have hs : ∀ (h : S1x23x32768.Reduces [2] S1x23) (hφ : FKind.Formats .f32) (hacc : (0x00000000#32 : BitVec 32) = FKind.add.neutral .f32 hφ),
      multiReduction .add [2] S1x23 (mulf x2 x2) 0x00000000#32 h hφ hacc (ix2 a j) = ∑ q : Fin 32768, x2 (ix3 a j q) * x2 (ix3 a j q) :=
    fun h hφ hacc => sum_points (T := 32768) (mulf x2 x2) h hφ hacc a j
  unfold k0_pay1 k0_pay11 k0_pay7
  simp only [shapeCast_self, addf_apply, cast_column]
  exact congrArg (xs (ix3 a j u) + ·) (hs _ _ _)

end Cert.KernelIdeal.Block

end
-- ==== Proof.KernelInputs.lean ====
/-
  The three input blocks the one-pass program's body sees at a grid point, read at an entry, as entries of the
  argument arrays: the grid points transposed to [8, 3, 262144] and cut into tiles of 32768 along the last axis, the
  centres by batch, the heat map reshaped to [8, 23, 262144] and cut into the same tiles.
-/
import proofs.«132371_j57226144252798_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Inputs

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- When the region is entered the transposed grid-point array is the transpose of the argument. -/
theorem V_main_v0 (c : Dev nD) : (V m c main_v0 : S8x3x262144.Idx → Elt F .f32)
    = transpose S8x3x262144 [0, 2, 1] (m ((c : Thread nD τ).loc main_arg3)) transposes_S8x262144x3_S8x3x262144_0_2_1 := by
  show StableHlo.after hostOps0 (fun b => m (c, b)) (Proc.devRef .tc main_v0) = _
  after_results

/-- When the region is entered the reshaped heat map is the reshape of the argument. -/
theorem V_main_v1 (c : Dev nD) : (V m c main_v1 : S8x23x262144.Idx → Elt F .f32)
    = shapeCast S8x23x262144 (m ((c : Thread nD τ).loc main_arg2)) shapeCasts_S8x23x64x64x64_S8x23x262144 := by
  show StableHlo.after hostOps0 (fun b => m (c, b)) (Proc.devRef .tc main_v1) = _
  after_results
  rfl

/-- The index maps of the three input windows over the 8 × 8 grid: batch t / 8, tile t % 8. -/
theorem idx0 : ∀ t : Fin cfg0.N, win0_0.index t 0 = t.val / 8 ∧ win0_0.index t 1 = 0 ∧ win0_0.index t 2 = t.val % 8 :=
  (by decide +kernel : ∀ t : Fin grid0.N, win0_0.index t 0 = t.val / 8 ∧ win0_0.index t 1 = 0 ∧ win0_0.index t 2 = t.val % 8)
theorem idx1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem idx2 : ∀ t : Fin cfg0.N, win0_2.index t 0 = t.val / 8 ∧ win0_2.index t 1 = 0 ∧ win0_2.index t 2 = t.val % 8 :=
  (by decide +kernel : ∀ t : Fin grid0.N, win0_2.index t 0 = t.val / 8 ∧ win0_2.index t 1 = 0 ∧ win0_2.index t 2 = t.val % 8)

/-- A grid point is below 64, so its batch is below 8 and a position inside its tile below 262144. -/
theorem t_lt (t : Fin cfg0.N) : t.val < 64 := by have hN : cfg0.N = 64 := N_0; have := t.isLt; omega
theorem batch_lt (t : Fin cfg0.N) : t.val / 8 < 8 := by have := t_lt t; omega
theorem pos_lt (t : Fin cfg0.N) (q : Fin 32768) : t.val % 8 * 32768 + q.val < 262144 := by have := q.isLt; omega

/-- The grid-point block at point t, entry (k, q): coordinate k of grid point (t % 8) · 32768 + q of batch t / 8. -/
theorem grid_block (c : Dev nD) (t : Fin cfg0.N) (a : Fin 1) (k : Fin 3) (q : Fin 32768) :
    (iblk m c 0 t : Vec F S1x3x32768 .f32) (ix3 a k q)
      = m ((c : Thread nD τ).loc main_arg3) (ix3 ⟨t.val / 8, batch_lt t⟩ ⟨t.val % 8 * 32768 + q.val, pos_lt t q⟩ k) := by
  have hi := idx0 t
  unfold iblk
  rw [View.read_apply]
  show V m c main_v0 (((cfg0.win 0).blk t).view.emb (ix3 a k q)) = _
  rw [V_main_v0]
  refine transpose_apply [0, 2, 1] _ transposes_S8x262144x3_S8x3x262144_0_2_1 _
    (ix3 ⟨t.val / 8, batch_lt t⟩ ⟨t.val % 8 * 32768 + q.val, pos_lt t q⟩ k) (fun b => ?_)
  match b with
  | ⟨0, _⟩ => show t.val / 8 = win0_0.index t 0 * 1 + 1 * a.val; rw [hi.1]; have := a.isLt; omega
  | ⟨1, _⟩ => show k.val = win0_0.index t 1 * 3 + 1 * k.val; rw [hi.2.1]; omega
  | ⟨2, _⟩ => show t.val % 8 * 32768 + q.val = win0_0.index t 2 * 32768 + 1 * q.val; rw [hi.2.2]; omega

/-- The centre block at point t, entry (k, j): coordinate k of joint j's centre in batch t / 8. -/
theorem centre_block (c : Dev nD) (t : Fin cfg0.N) (a : Fin 1) (k : Fin 3) (j : Fin 23) :
    (iblk m c 1 t : Vec F S1x3x23 .f32) (ix3 a k j)
      = m ((c : Thread nD τ).loc main_arg1) (ix3 ⟨t.val / 8, batch_lt t⟩ k j) := by
  have hi := idx1 t
  unfold iblk
  rw [View.read_apply]
  show V m c main_arg1 (((cfg0.win 1).blk t).view.emb (ix3 a k j)) = _
  rw [V_main_arg1]
  refine congrArg _ (funext fun e => Fin.ext ?_)
  match e with
  | ⟨0, _⟩ => show win0_1.index t 0 * 1 + 1 * a.val = t.val / 8; rw [hi.1]; have := a.isLt; omega
  | ⟨1, _⟩ => show win0_1.index t 1 * 3 + 1 * k.val = k.val; rw [hi.2.1]; omega
  | ⟨2, _⟩ => show win0_1.index t 2 * 23 + 1 * j.val = j.val; rw [hi.2.2]; omega

/-- The heat-map block at point t, entry (j, q): the reshaped heat map of joint j at grid point (t % 8) · 32768 + q of
    batch t / 8. -/
theorem heat_block (c : Dev nD) (t : Fin cfg0.N) (a : Fin 1) (j : Fin 23) (q : Fin 32768) :
    (iblk m c 2 t : Vec F S1x23x32768 .f32) (ix3 a j q)
      = shapeCast S8x23x262144 (m ((c : Thread nD τ).loc main_arg2)) shapeCasts_S8x23x64x64x64_S8x23x262144
          (ix3 ⟨t.val / 8, batch_lt t⟩ j ⟨t.val % 8 * 32768 + q.val, pos_lt t q⟩) := by
  have hi := idx2 t
  unfold iblk
  rw [View.read_apply]
  show V m c main_v1 (((cfg0.win 2).blk t).view.emb (ix3 a j q)) = _
  rw [V_main_v1]
  refine congrArg _ (funext fun e => Fin.ext ?_)
  match e with
  | ⟨0, _⟩ => show win0_2.index t 0 * 1 + 1 * a.val = t.val / 8; rw [hi.1]; have := a.isLt; omega
  | ⟨1, _⟩ => show win0_2.index t 1 * 23 + 1 * j.val = j.val; rw [hi.2.1]; omega
  | ⟨2, _⟩ => show win0_2.index t 2 * 32768 + 1 * q.val = t.val % 8 * 32768 + q.val; rw [hi.2.2]; omega

end Cert.KernelIdeal.Inputs

end
-- ==== Proof.KernelArgs.lean ====
/-
  The kernel program's three argument arrays read by coordinates, in the form the specification takes them:
  the grid points (batch, point, coordinate), the predicted centres (batch, coordinate, joint), and the heat maps
  (batch, joint, point) — the five-axis heat-map array read through its row-major reshape to [8, 23, 262144].
-/
import proofs.«132371_j57226144252798_2_alg».proof.Proof.Gen.KernelIdeal
import proofs.«132371_j57226144252798_2_alg».proof.Proof.Spec
import Idealize.ShloMosaic.Lib.ValueIdx

noncomputable section

namespace Cert.KernelIdeal.Args

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (c : Dev nD)

/-- Coordinate `k` of grid point `n` in batch `b`. -/
def gOf : Fin 8 → Fin 262144 → Fin 3 → EReal := fun b n k => m ((c : Thread nD τ).loc main_arg3) (ix3 b n k)

/-- Coordinate `k` of joint `j`'s predicted centre in batch `b`. -/
def cenOf : Fin 8 → Fin 3 → Fin 23 → EReal := fun b k j => m ((c : Thread nD τ).loc main_arg1) (ix3 b k j)

/-- The heat map of joint `j` at grid point `n` in batch `b`. -/
def heatOf : Fin 8 → Fin 23 → Fin 262144 → EReal := fun b j n =>
  shapeCast S8x23x262144 (m ((c : Thread nD τ).loc main_arg2)) shapeCasts_S8x23x64x64x64_S8x23x262144 (ix3 b j n)

end Cert.KernelIdeal.Args

end
-- ==== Proof.LibTiles.lean ====
/-
  Sums over an index set cut into equal tiles.
-/
import Mathlib.Algebra.BigOperators.Fin
import Mathlib.Logic.Equiv.Fin.Basic

namespace Cert.LibTiles

/-- Entry `q` of tile `k`, among `K` tiles of `T` entries each, counted from the start: `k · T + q`. -/
def tileIdx {K T : Nat} (k : Fin K) (q : Fin T) : Fin (K * T) :=
  ⟨k.val * T + q.val, by
    have h1 : k.val * T + T ≤ K * T := by
      have := Nat.mul_le_mul_right T (Nat.succ_le_of_lt k.isLt)
      rwa [Nat.succ_mul] at this
    have := q.isLt
    omega⟩

/-- A sum over `K · T` entries is the sum over the tiles of the sums inside each tile. -/
theorem sum_tiles {M : Type*} [AddCommMonoid M] {K T : Nat} (f : Fin (K * T) → M) :
    ∑ k : Fin K, ∑ q : Fin T, f (tileIdx k q) = ∑ n : Fin (K * T), f n := by
  rw [← Equiv.sum_comp finProdFinEquiv f, Fintype.sum_prod_type]
  refine Finset.sum_congr rfl fun k _ => Finset.sum_congr rfl fun q _ => congrArg f (Fin.ext ?_)
  show k.val * T + q.val = q.val + T * k.val
  rw [Nat.add_comm, Nat.mul_comm]

/-- The same for 262144 entries cut into 8 tiles of 32768. -/
theorem sum_tiles_grid {M : Type*} [AddCommMonoid M] (f : Fin 262144 → M) :
    ∑ k : Fin 8, ∑ q : Fin 32768, f ⟨k.val * 32768 + q.val, by have := k.isLt; have := q.isLt; omega⟩
      = ∑ n : Fin 262144, f n := by
  have h : 8 * 32768 = 262144 := by decide
  rw [← Equiv.sum_comp (finCongr h) f, ← sum_tiles (K := 8) (T := 32768) fun n => f (finCongr h n)]
  exact Finset.sum_congr rfl fun k _ => Finset.sum_congr rfl fun q _ => congrArg f (Fin.ext rfl)

end Cert.LibTiles
-- ==== Proof.LibRestartSum.lean ====
/-
  A running sum that restarts every eighth step.
-/
import Mathlib.Algebra.BigOperators.Intervals
import Mathlib.Algebra.BigOperators.Fin

namespace Cert.LibRestartSum

/-- A sequence `X` that at the multiples of 8 is the term `T n`, and at every other step is its predecessor plus `T n`,
    is at step `n` the sum of the terms since the last multiple of 8: `T (n - n % 8) + … + T n`. -/
theorem restart_sum {M : Type*} [AddCommMonoid M] (N : ℕ) (X T : ℕ → M)
    (hfirst : ∀ n, n < N → n % 8 = 0 → X n = T n)
    (hnext : ∀ n, n + 1 < N → (n + 1) % 8 ≠ 0 → X (n + 1) = X n + T (n + 1)) :
    ∀ n, n < N → X n = ∑ k ∈ Finset.range (n % 8 + 1), T (n - n % 8 + k) := by
  intro n
  induction n with
  | zero =>
    intro h
    rw [hfirst 0 h (Nat.zero_mod _)]
    simp
  | succ n ih =>
    intro h
    by_cases h0 : (n + 1) % 8 = 0
    · rw [hfirst _ h h0, h0]
      simp
    · have e1 : (n + 1) % 8 = n % 8 + 1 := by omega
      have e2 : n + 1 - (n % 8 + 1) = n - n % 8 := by omega
      have e3 : n - n % 8 + (n % 8 + 1) = n + 1 := by omega
      rw [hnext n h h0, ih (by omega), e1, Finset.sum_range_succ _ (n % 8 + 1), e2, e3]

/-- At the last step of a stretch of eight the sequence is the sum of the stretch's eight terms. -/
theorem restart_sum_last {M : Type*} [AddCommMonoid M] (N : ℕ) (X T : ℕ → M)
    (hfirst : ∀ n, n < N → n % 8 = 0 → X n = T n)
    (hnext : ∀ n, n + 1 < N → (n + 1) % 8 ≠ 0 → X (n + 1) = X n + T (n + 1))
    (n : ℕ) (hn : n < N) (h7 : n % 8 = 7) :
    X n = ∑ k : Fin 8, T (n - 7 + k.val) := by
  rw [restart_sum N X T hfirst hnext n hn, h7, Fin.sum_univ_eq_sum_range (fun k => T (n - 7 + k)) 8]

end Cert.LibRestartSum
-- ==== Proof.KernelAcc.lean ====
/-
  What the four accumulators hold point by point, and the four sums they end a batch with.

  The grid's 64 points are 8 batches of 8 tiles. Along a batch each accumulator starts, at tile 0, from zero plus
  the tile's sum, and gains the tile's sum at each of tiles 1 … 7; so after tile 7 it is the sum of the eight tiles'
  sums, which is the sum over all 262144 grid points of the batch. At that point the body also copies the four
  accumulators to the four output blocks. The summands are, for joint j and grid point n: the weight, its square,
  its product with the heat map, and the heat map's square.
-/
import proofs.«132371_j57226144252798_2_alg».proof.Proof.Gen.KernelIdeal.Frame
import proofs.«132371_j57226144252798_2_alg».proof.Proof.KernelPieces
import proofs.«132371_j57226144252798_2_alg».proof.Proof.KernelBlock
import proofs.«132371_j57226144252798_2_alg».proof.Proof.KernelInputs
import proofs.«132371_j57226144252798_2_alg».proof.Proof.KernelArgs
import proofs.«132371_j57226144252798_2_alg».proof.Proof.Spec
import proofs.«132371_j57226144252798_2_alg».proof.Proof.LibTiles
import proofs.«132371_j57226144252798_2_alg».proof.Proof.LibRestartSum

set_option maxRecDepth 16384

noncomputable section

namespace Cert.KernelIdeal.Acc

open Cert.KernelIdeal Cert.KernelIdeal.Gen Cert.KernelIdeal.Args Cert.KernelIdeal.Inputs
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

/-- The batch a grid point works on. -/
def batchOf (t : Fin cfg0.N) : Fin 8 := ⟨t.val / 8, batch_lt t⟩
/-- The grid point that position `q` of a point's tile is. -/
def pointOf (t : Fin cfg0.N) (q : Fin 32768) : Fin 262144 := ⟨t.val % 8 * 32768 + q.val, pos_lt t q⟩

theorem pred_lt (t : Fin cfg0.N) : t.val - 1 < cfg0.N := Nat.lt_of_le_of_lt (Nat.sub_le _ _) t.isLt

/-- The four accumulators after the body at position `n`. -/
abbrev scr0 (n : ℕ) (h : n < cfg0.N) : FVec Ideal S1x23x1 .f32 := (outsAt0 m c n h).2.2.2.2.1
abbrev scr1 (n : ℕ) (h : n < cfg0.N) : FVec Ideal S1x23x1 .f32 := (outsAt0 m c n h).2.2.2.2.2.1
abbrev scr2 (n : ℕ) (h : n < cfg0.N) : FVec Ideal S1x23x1 .f32 := (outsAt0 m c n h).2.2.2.2.2.2.1
abbrev scr3 (n : ℕ) (h : n < cfg0.N) : FVec Ideal S1x23x1 .f32 := (outsAt0 m c n h).2.2.2.2.2.2.2

/-! ## The accumulators as payloads, case by case -/

/-- At a batch's first tile. -/
theorem first_pay (t : Fin cfg0.N) (h0 : t.val % 8 = 0) :
    scr0 m c t.val t.isLt = k0_pay8 (k0_pay6 (iblk m c 0 t) (iblk m c 1 t)) (k0_pay2 (F := Ideal))
    ∧ scr1 m c t.val t.isLt = k0_pay9 (k0_pay6 (iblk m c 0 t) (iblk m c 1 t)) (k0_pay3 (F := Ideal))
    ∧ scr2 m c t.val t.isLt = k0_pay10 (k0_pay6 (iblk m c 0 t) (iblk m c 1 t)) (iblk m c 2 t) (k0_pay4 (F := Ideal))
    ∧ scr3 m c t.val t.isLt = k0_pay1 (k0_pay11 (iblk m c 2 t) (k0_pay5 (F := Ideal))) := by
  have h1 : ¬t.val % 8 = 7 := by omega
  unfold scr0 scr1 scr2 scr3
  rw [outsAt0_A m c t h0 h1]
  dsimp only
  exact ⟨Pieces.first_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) ((hcond0_0 t).mpr h0) (fun h => h1 ((hcond0_1 t).mp h)),
    Pieces.first_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) ((hcond0_0 t).mpr h0) (fun h => h1 ((hcond0_1 t).mp h)),
    Pieces.first_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) ((hcond0_0 t).mpr h0) (fun h => h1 ((hcond0_1 t).mp h)),
    Pieces.first_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) ((hcond0_0 t).mpr h0) (fun h => h1 ((hcond0_1 t).mp h))⟩

/-- At a middle tile. -/
theorem middle_pay (t : Fin cfg0.N) (h0 : ¬t.val % 8 = 0) (h1 : ¬t.val % 8 = 7) :
    scr0 m c t.val t.isLt = k0_pay8 (k0_pay6 (iblk m c 0 t) (iblk m c 1 t)) (scr0 m c (t.val - 1) (pred_lt t))
    ∧ scr1 m c t.val t.isLt = k0_pay9 (k0_pay6 (iblk m c 0 t) (iblk m c 1 t)) (scr1 m c (t.val - 1) (pred_lt t))
    ∧ scr2 m c t.val t.isLt = k0_pay10 (k0_pay6 (iblk m c 0 t) (iblk m c 1 t)) (iblk m c 2 t) (scr2 m c (t.val - 1) (pred_lt t))
    ∧ scr3 m c t.val t.isLt = k0_pay1 (k0_pay11 (iblk m c 2 t) (scr3 m c (t.val - 1) (pred_lt t))) := by
  unfold scr0 scr1 scr2 scr3
  rw [outsAt0_B m c t h0 h1]
  dsimp only
  exact ⟨Pieces.middle_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) _ _ _ _ (fun h => h0 ((hcond0_0 t).mp h)) (fun h => h1 ((hcond0_1 t).mp h)),
    Pieces.middle_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) _ _ _ _ (fun h => h0 ((hcond0_0 t).mp h)) (fun h => h1 ((hcond0_1 t).mp h)),
    Pieces.middle_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) _ _ _ _ (fun h => h0 ((hcond0_0 t).mp h)) (fun h => h1 ((hcond0_1 t).mp h)),
    Pieces.middle_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) _ _ _ _ (fun h => h0 ((hcond0_0 t).mp h)) (fun h => h1 ((hcond0_1 t).mp h))⟩

/-- At a batch's last tile: the accumulators, and the output blocks, which receive them. -/
theorem last_pay (t : Fin cfg0.N) (h0 : ¬t.val % 8 = 0) (h1 : t.val % 8 = 7) :
    (scr0 m c t.val t.isLt = k0_pay8 (k0_pay6 (iblk m c 0 t) (iblk m c 1 t)) (scr0 m c (t.val - 1) (pred_lt t))
    ∧ scr1 m c t.val t.isLt = k0_pay9 (k0_pay6 (iblk m c 0 t) (iblk m c 1 t)) (scr1 m c (t.val - 1) (pred_lt t))
    ∧ scr2 m c t.val t.isLt = k0_pay10 (k0_pay6 (iblk m c 0 t) (iblk m c 1 t)) (iblk m c 2 t) (scr2 m c (t.val - 1) (pred_lt t))
    ∧ scr3 m c t.val t.isLt = k0_pay1 (k0_pay11 (iblk m c 2 t) (scr3 m c (t.val - 1) (pred_lt t))))
    ∧ ((outsAt0 m c t.val t.isLt).1 = k0_pay8 (k0_pay6 (iblk m c 0 t) (iblk m c 1 t)) (scr0 m c (t.val - 1) (pred_lt t))
    ∧ (outsAt0 m c t.val t.isLt).2.1 = k0_pay9 (k0_pay6 (iblk m c 0 t) (iblk m c 1 t)) (scr1 m c (t.val - 1) (pred_lt t))
    ∧ (outsAt0 m c t.val t.isLt).2.2.1 = k0_pay10 (k0_pay6 (iblk m c 0 t) (iblk m c 1 t)) (iblk m c 2 t) (scr2 m c (t.val - 1) (pred_lt t))
    ∧ (outsAt0 m c t.val t.isLt).2.2.2.1 = k0_pay1 (k0_pay11 (iblk m c 2 t) (scr3 m c (t.val - 1) (pred_lt t)))) := by
  unfold scr0 scr1 scr2 scr3
  rw [outsAt0_C m c t h0 h1]
  dsimp only
  exact ⟨⟨Pieces.last_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) _ _ _ _ (fun h => h0 ((hcond0_0 t).mp h)) ((hcond0_1 t).mpr h1),
    Pieces.last_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) _ _ _ _ (fun h => h0 ((hcond0_0 t).mp h)) ((hcond0_1 t).mpr h1),
    Pieces.last_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) _ _ _ _ (fun h => h0 ((hcond0_0 t).mp h)) ((hcond0_1 t).mpr h1),
    Pieces.last_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) _ _ _ _ (fun h => h0 ((hcond0_0 t).mp h)) ((hcond0_1 t).mpr h1)⟩,
    Pieces.last_out_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) _ _ _ _ (fun h => h0 ((hcond0_0 t).mp h)) ((hcond0_1 t).mpr h1),
    Pieces.last_out_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) _ _ _ _ (fun h => h0 ((hcond0_0 t).mp h)) ((hcond0_1 t).mpr h1),
    Pieces.last_out_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) _ _ _ _ (fun h => h0 ((hcond0_0 t).mp h)) ((hcond0_1 t).mpr h1),
    Pieces.last_out_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) _ _ _ _ (fun h => h0 ((hcond0_0 t).mp h)) ((hcond0_1 t).mpr h1)⟩

/-! ## One tile's summands are the specification's, at the tile's grid points -/

/-- The weight the body forms at a point's blocks is the specification's weight at the tile's grid point. -/
theorem tile_weight (t : Fin cfg0.N) (a : Fin 1) (j : Fin 23) (q : Fin 32768) :
    Block.wgt (iblk m c 0 t) (iblk m c 1 t) a j q = Spec.wgt (gOf m c) (cenOf m c) (batchOf t) j (pointOf t q) := by
  unfold Block.wgt Block.dist2 Spec.wgt Spec.logitK Spec.dist2 gOf cenOf batchOf pointOf
  simp only [grid_block m c t, centre_block m c t]

/-- The heat-map block's entry is the heat map at the tile's grid point. -/
theorem tile_heat (t : Fin cfg0.N) (a : Fin 1) (j : Fin 23) (q : Fin 32768) :
    (iblk m c 2 t : FVec Ideal S1x23x32768 .f32) (ix3 a j q) = heatOf m c (batchOf t) j (pointOf t q) := by
  unfold heatOf batchOf pointOf
  exact heat_block m c t a j q

/-- The four summands of a batch, for joint `j` at grid point `n`. -/
def termW (j : Fin 23) (p : Fin 8) (n : Fin 262144) : EReal := Spec.wgt (gOf m c) (cenOf m c) p j n
def termWW (j : Fin 23) (p : Fin 8) (n : Fin 262144) : EReal := Spec.wgt (gOf m c) (cenOf m c) p j n * Spec.wgt (gOf m c) (cenOf m c) p j n
def termWH (j : Fin 23) (p : Fin 8) (n : Fin 262144) : EReal := Spec.wgt (gOf m c) (cenOf m c) p j n * heatOf m c p j n
def termHH (j : Fin 23) (p : Fin 8) (n : Fin 262144) : EReal := heatOf m c p j n * heatOf m c p j n

/-- What the tile of point `t` adds to an accumulator whose summand is `f`. -/
def tileOf (f : Fin 8 → Fin 262144 → EReal) (t : Fin cfg0.N) : EReal := ∑ q : Fin 32768, f (batchOf t) (pointOf t q)

/-- The four updates of the body, at an entry, given what the accumulators held: each gains its tile's sum. -/
theorem update_entries (t : Fin cfg0.N) (y0 y1 y2 y3 : FVec Ideal S1x23x1 .f32) (a : Fin 1) (j : Fin 23) (u : Fin 1) :
    k0_pay8 (F := Ideal) (k0_pay6 (iblk m c 0 t) (iblk m c 1 t)) y0 (ix3 a j u) = y0 (ix3 a j u) + tileOf (termW m c j) t
    ∧ k0_pay9 (F := Ideal) (k0_pay6 (iblk m c 0 t) (iblk m c 1 t)) y1 (ix3 a j u) = y1 (ix3 a j u) + tileOf (termWW m c j) t
    ∧ k0_pay10 (F := Ideal) (k0_pay6 (iblk m c 0 t) (iblk m c 1 t)) (iblk m c 2 t) y2 (ix3 a j u) = y2 (ix3 a j u) + tileOf (termWH m c j) t
    ∧ k0_pay1 (F := Ideal) (k0_pay11 (iblk m c 2 t) y3) (ix3 a j u) = y3 (ix3 a j u) + tileOf (termHH m c j) t := by
  have hw : ∀ q : Fin 32768, k0_pay6 (F := Ideal) (iblk m c 0 t) (iblk m c 1 t) (ix3 a j q) = Spec.wgt (gOf m c) (cenOf m c) (batchOf t) j (pointOf t q) :=
    fun q => (Block.weights_apply (iblk m c 0 t) (iblk m c 1 t) a j q).trans (tile_weight m c t a j q)
  have hh : ∀ q : Fin 32768, (iblk m c 2 t : FVec Ideal S1x23x32768 .f32) (ix3 a j q) = heatOf m c (batchOf t) j (pointOf t q) :=
    fun q => tile_heat m c t a j q
  refine ⟨?_, ?_, ?_, ?_⟩
  · refine (Block.accW_apply (k0_pay6 (iblk m c 0 t) (iblk m c 1 t)) y0 a j u).trans (congrArg (y0 (ix3 a j u) + ·) ?_)
    exact Finset.sum_congr rfl fun q _ => hw q
  · refine (Block.accWW_apply (k0_pay6 (iblk m c 0 t) (iblk m c 1 t)) y1 a j u).trans (congrArg (y1 (ix3 a j u) + ·) ?_)
    exact Finset.sum_congr rfl fun q _ => by rw [hw q]; rfl
  · refine (Block.accWH_apply (iblk m c 2 t) (k0_pay6 (iblk m c 0 t) (iblk m c 1 t)) y2 a j u).trans (congrArg (y2 (ix3 a j u) + ·) ?_)
    exact Finset.sum_congr rfl fun q _ => by rw [hw q, hh q]; rfl
  · refine (Block.accHH_apply (iblk m c 2 t) y3 a j u).trans (congrArg (y3 (ix3 a j u) + ·) ?_)
    exact Finset.sum_congr rfl fun q _ => by rw [hh q]; rfl

/-! ## Along a batch -/

/-- A quantity that at a batch's first tile is zero plus the tile's sum and at every later tile its predecessor plus the
    tile's sum is, after the batch's last tile, the sum over all the batch's grid points. -/
theorem sum_over_batch (f : Fin 8 → Fin 262144 → EReal) (X : (n : ℕ) → n < cfg0.N → EReal)
    (hfirst : ∀ t : Fin cfg0.N, t.val % 8 = 0 → X t.val t.isLt = Ideal.ofBits .f32 0x00000000#32 + tileOf f t)
    (hnext : ∀ t : Fin cfg0.N, ¬t.val % 8 = 0 → X t.val t.isLt = X (t.val - 1) (pred_lt t) + tileOf f t)
    (t : Fin cfg0.N) (h7 : t.val % 8 = 7) : X t.val t.isLt = ∑ n : Fin 262144, f (batchOf t) n := by
  have hN : cfg0.N = 64 := N_0
  have key := Cert.LibRestartSum.restart_sum_last cfg0.N
    (fun n => if h : n < cfg0.N then X n h else 0) (fun n => if h : n < cfg0.N then tileOf f ⟨n, h⟩ else 0)
    (fun n hn h0 => by
      simp only [dif_pos hn]
      rw [hfirst ⟨n, hn⟩ h0, Ideal.ofBits_zero_f32, zero_add])
    (fun n hn h0 => by
      simp only [dif_pos hn, dif_pos (Nat.lt_of_succ_lt hn)]
      exact hnext ⟨n + 1, hn⟩ h0)
    t.val t.isLt h7
  simp only [dif_pos t.isLt] at key
  rw [key, ← Cert.LibTiles.sum_tiles_grid (fun n => f (batchOf t) n)]
  refine Finset.sum_congr rfl fun k _ => ?_
  have hk : t.val - 7 + k.val < cfg0.N := by have := t.isLt; have := k.isLt; omega
  rw [dif_pos hk]
  unfold tileOf
  refine Finset.sum_congr rfl fun q _ => ?_
  have eb : batchOf ⟨t.val - 7 + k.val, hk⟩ = batchOf t :=
    Fin.ext (by show (t.val - 7 + k.val) / 8 = t.val / 8; have := k.isLt; omega)
  have ep : pointOf ⟨t.val - 7 + k.val, hk⟩ q = ⟨k.val * 32768 + q.val, by have := k.isLt; have := q.isLt; omega⟩ :=
    Fin.ext (by
      show (t.val - 7 + k.val) % 8 * 32768 + q.val = k.val * 32768 + q.val
      have e : (t.val - 7 + k.val) % 8 = k.val := by have := k.isLt; omega
      rw [e])
  rw [eb, ep]

/-- THE INVARIANT'S CONCLUSION: after a batch's last tile the four output blocks hold, at joint `j`, the batch's
    four sums over its grid points. -/
theorem outputs_last (t : Fin cfg0.N) (h7 : t.val % 8 = 7) (a : Fin 1) (j : Fin 23) (u : Fin 1) :
    (outsAt0 m c t.val t.isLt).1 (ix3 a j u) = Spec.sumW (gOf m c) (cenOf m c) (batchOf t) j
    ∧ (outsAt0 m c t.val t.isLt).2.1 (ix3 a j u) = Spec.sumWW (gOf m c) (cenOf m c) (batchOf t) j
    ∧ (outsAt0 m c t.val t.isLt).2.2.1 (ix3 a j u) = Spec.sumWH (gOf m c) (cenOf m c) (heatOf m c) (batchOf t) j
    ∧ (outsAt0 m c t.val t.isLt).2.2.2.1 (ix3 a j u) = Spec.sumHH (heatOf m c) (batchOf t) j := by
  have h0 : ¬t.val % 8 = 0 := by omega
  -- the accumulators' recurrences, at the entry
  have hfirst : ∀ s : Fin cfg0.N, s.val % 8 = 0 →
      scr0 m c s.val s.isLt (ix3 a j u) = Ideal.ofBits .f32 0x00000000#32 + tileOf (termW m c j) s
      ∧ scr1 m c s.val s.isLt (ix3 a j u) = Ideal.ofBits .f32 0x00000000#32 + tileOf (termWW m c j) s
      ∧ scr2 m c s.val s.isLt (ix3 a j u) = Ideal.ofBits .f32 0x00000000#32 + tileOf (termWH m c j) s
      ∧ scr3 m c s.val s.isLt (ix3 a j u) = Ideal.ofBits .f32 0x00000000#32 + tileOf (termHH m c j) s := by
    intro s hs
    obtain ⟨e0, e1, e2, e3⟩ := first_pay m c s hs
    obtain ⟨z0, z1, z2, z3⟩ := Block.zero_column_apply a j u
    obtain ⟨u0, u1, u2, u3⟩ := update_entries m c s (k0_pay2 (F := Ideal)) (k0_pay3 (F := Ideal)) (k0_pay4 (F := Ideal)) (k0_pay5 (F := Ideal)) a j u
    rw [e0, e1, e2, e3, u0, u1, u2, u3, z0, z1, z2, z3]
    exact ⟨rfl, rfl, rfl, rfl⟩
  have hnext : ∀ s : Fin cfg0.N, ¬s.val % 8 = 0 →
      scr0 m c s.val s.isLt (ix3 a j u) = scr0 m c (s.val - 1) (pred_lt s) (ix3 a j u) + tileOf (termW m c j) s
      ∧ scr1 m c s.val s.isLt (ix3 a j u) = scr1 m c (s.val - 1) (pred_lt s) (ix3 a j u) + tileOf (termWW m c j) s
      ∧ scr2 m c s.val s.isLt (ix3 a j u) = scr2 m c (s.val - 1) (pred_lt s) (ix3 a j u) + tileOf (termWH m c j) s
      ∧ scr3 m c s.val s.isLt (ix3 a j u) = scr3 m c (s.val - 1) (pred_lt s) (ix3 a j u) + tileOf (termHH m c j) s := by
    intro s hs
    obtain ⟨u0, u1, u2, u3⟩ := update_entries m c s (scr0 m c (s.val - 1) (pred_lt s)) (scr1 m c (s.val - 1) (pred_lt s))
      (scr2 m c (s.val - 1) (pred_lt s)) (scr3 m c (s.val - 1) (pred_lt s)) a j u
    by_cases hl : s.val % 8 = 7
    · obtain ⟨⟨e0, e1, e2, e3⟩, -⟩ := last_pay m c s hs hl
      rw [e0, e1, e2, e3]
      exact ⟨u0, u1, u2, u3⟩
    · obtain ⟨e0, e1, e2, e3⟩ := middle_pay m c s hs hl
      rw [e0, e1, e2, e3]
      exact ⟨u0, u1, u2, u3⟩
  -- the outputs at the last tile are the accumulators there
  obtain ⟨⟨e0, e1, e2, e3⟩, o0, o1, o2, o3⟩ := last_pay m c t h0 h7
  have s0 := sum_over_batch (termW m c j) (fun n h => scr0 m c n h (ix3 a j u)) (fun s hs => (hfirst s hs).1) (fun s hs => (hnext s hs).1) t h7
  have s1 := sum_over_batch (termWW m c j) (fun n h => scr1 m c n h (ix3 a j u)) (fun s hs => (hfirst s hs).2.1) (fun s hs => (hnext s hs).2.1) t h7
  have s2 := sum_over_batch (termWH m c j) (fun n h => scr2 m c n h (ix3 a j u)) (fun s hs => (hfirst s hs).2.2.1) (fun s hs => (hnext s hs).2.2.1) t h7
  have s3 := sum_over_batch (termHH m c j) (fun n h => scr3 m c n h (ix3 a j u)) (fun s hs => (hfirst s hs).2.2.2) (fun s hs => (hnext s hs).2.2.2) t h7
  refine ⟨?_, ?_, ?_, ?_⟩
  · rw [o0, ← e0]; exact s0
  · rw [o1, ← e1]; exact s1
  · rw [o2, ← e2]; exact s2
  · rw [o3, ← e3]; exact s3

end Cert.KernelIdeal.Acc

end
-- ==== Proof.KernelFinal.lean ====
/-
  From the invariant at the last tile of each batch to what the four output arrays end holding.

  The four output arrays S, A, B, C (one entry per batch and joint) are written back only after the last of a
  batch's eight tiles, one block [1, 23, 1] at block index (batch, 0, 0); the eight write-backs tile each array, so
  each array ends holding its row sums entry by entry.
-/
import proofs.«132371_j57226144252798_2_alg».proof.Proof.Gen.KernelIdeal.Frame
import proofs.«132371_j57226144252798_2_alg».proof.Proof.Spec
import proofs.«132371_j57226144252798_2_alg».proof.Proof.KernelArgs
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Args

variable (m : (ℓ : Loc nD τ sig) → Buf (Elt Ideal) ℓ) (ρ : Dev nD → PrngReg)

/-- The batch of a grid point. -/
def batchOf (t : Fin cfg0.N) : Fin 8 := ⟨t.val / 8, by have := t.isLt; have hN : cfg0.N = 64 := N_0; omega⟩

/-- After the last tile of a batch the four output buffers hold that batch's four sums. -/
def Inv : Prop := ∀ (c : Dev nD) (t : Fin cfg0.N), t.val % 8 = 7 → ∀ (a : Fin 1) (j : Fin 23) (u : Fin 1),
    (outsAt0 m c t.val t.isLt).1 (ix3 a j u) = Cert.Spec.sumW (gOf m c) (cenOf m c) (batchOf t) j
    ∧ (outsAt0 m c t.val t.isLt).2.1 (ix3 a j u) = Cert.Spec.sumWW (gOf m c) (cenOf m c) (batchOf t) j
    ∧ (outsAt0 m c t.val t.isLt).2.2.1 (ix3 a j u) = Cert.Spec.sumWH (gOf m c) (cenOf m c) (heatOf m c) (batchOf t) j
    ∧ (outsAt0 m c t.val t.isLt).2.2.2.1 (ix3 a j u) = Cert.Spec.sumHH (heatOf m c) (batchOf t) j

attribute [local irreducible] Cert.Spec.sumW Cert.Spec.sumWW Cert.Spec.sumWH Cert.Spec.sumHH Cert.Spec.kernelLoss

/-! ## Output window 3: the array of the sums S -/

/-- The array of the sums S, entry by entry. -/
def G3 (c : Dev nD) : Buf (Elt Ideal) ((c : Thread nD τ).loc main_v2_0) :=
  fun i => Cert.Spec.sumW (gOf m c) (cenOf m c) (i 0) (i 1)

/-- The block index of window 3 at a grid point: (batch, 0, 0). -/
theorem index3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

/-- Reading an array through the block of a point: the entry at the block's place in the array. -/
theorem read_blk3 (c : Dev nD) (t : Fin cfg0.N) (G : Buf (Elt Ideal) ((c : Thread nD τ).loc main_v2_0))
    (y : ((cfg0.win 3).xblock (grid0.coords t)).Idx) :
    ((cfg0.win 3).blk t).view.read (Elt Ideal) G y = G (((cfg0.win 3).blk t).view.emb y) := rfl

/-- What a write-back of window 3 writes is the block of the array of sums: the point's batch is the block's
    index on axis 0, and the invariant gives the buffer's entries. -/
theorem flushed_eq_3 (hinv : Inv m) (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  show (cfg0.win 3).cut (grid0.coords t) ((dats m 0 c).after 3 t) = _
  rw [after0_3]
  funext y
  refine Eq.trans ?_ (read_blk3 c t (G3 m c) y).symm
  have e : (cfg0.win 3).xinj (grid0.coords t) y
      = ix3 (n0 := 1) (n1 := 23) (n2 := 1) ((cfg0.win 3).xinj (grid0.coords t) y 0) ((cfg0.win 3).xinj (grid0.coords t) y 1) ((cfg0.win 3).xinj (grid0.coords t) y 2) := eq_ix3 _
  refine (congrArg (outsAt0 m c t.val t.isLt).1 e).trans ?_
  refine ((hinv c t h7 _ _ _).1).trans ?_
  have hi := index3 t
  have y0 : (y 0).val < 1 := (y 0).isLt
  have e0 : batchOf t = ((cfg0.win 3).blk t).view.emb y 0 := by
    apply Fin.ext
    show t.val / 8 = win0_3.index t 0 * 1 + 1 * (y 0).val
    rw [hi.1]; omega
  have e1 : (cfg0.win 3).xinj (grid0.coords t) y 1 = ((cfg0.win 3).blk t).view.emb y 1 := by
    apply Fin.ext
    show (y 1).val = win0_3.index t 1 * 23 + 1 * (y 1).val
    rw [hi.2.1]; omega
  dsimp only [G3]
  rw [e0, e1]

/-- The eight write-backs tile the array: entry (p, j, 0) is in the block of point 8 p + 7. So the array ends
    holding the sums S. -/
theorem final3 (hinv : Inv m) (c : Dev nD) : (dats m 0 c).arrAt 3 cfg0.N = G3 m c :=
  (dats m 0 c).arrAt_eq_of_cover 3 (G3 m c) (flushed_eq_3 m hinv c) fun i => by
    have hN : cfg0.N = 64 := N_0
    have h0 : (i 0 : Nat) < 8 := (i 0).isLt
    have h1 : (i 1 : Nat) < 23 := (i 1).isLt
    have h2 : (i 2 : Nat) < 1 := (i 2).isLt
    obtain ⟨t, ht⟩ : ∃ t : Fin cfg0.N, t.val = 8 * (i 0).val + 7 := ⟨⟨8 * (i 0).val + 7, by omega⟩, rfl⟩
    refine ⟨t, (flush0_3 t).mpr (by omega), ?_⟩
    show i ∈ ((View.whole main_v2_0).slice (win0_3.rect t)).set
    rw [View.set_slice_whole, Rect.mem_set_unit]
    intro a
    have hi := index3 t
    match a with
    | ⟨0, _⟩ =>
      show win0_3.index t 0 * win0_3.size 0 ≤ (i 0 : Nat) ∧ (i 0 : Nat) < win0_3.index t 0 * win0_3.size 0 + win0_3.xsize (grid0.coords t) 0
      rw [hi.1, show win0_3.size 0 = 1 from rfl, show win0_3.xsize (grid0.coords t) 0 = 1 from rfl]; omega
    | ⟨1, _⟩ =>
      show win0_3.index t 1 * win0_3.size 1 ≤ (i 1 : Nat) ∧ (i 1 : Nat) < win0_3.index t 1 * win0_3.size 1 + win0_3.xsize (grid0.coords t) 1
      rw [hi.2.1, show win0_3.size 1 = 23 from rfl, show win0_3.xsize (grid0.coords t) 1 = 23 from rfl]; omega
    | ⟨2, _⟩ =>
      show win0_3.index t 2 * win0_3.size 2 ≤ (i 2 : Nat) ∧ (i 2 : Nat) < win0_3.index t 2 * win0_3.size 2 + win0_3.xsize (grid0.coords t) 2
      rw [hi.2.2, show win0_3.size 2 = 1 from rfl, show win0_3.xsize (grid0.coords t) 2 = 1 from rfl]; omega

/-! ## Output window 4: the array of the sums A -/

/-- The array of the sums A, entry by entry. -/
def G4 (c : Dev nD) : Buf (Elt Ideal) ((c : Thread nD τ).loc main_v2_1) :=
  fun i => Cert.Spec.sumWW (gOf m c) (cenOf m c) (i 0) (i 1)

/-- The block index of window 4 at a grid point: (batch, 0, 0). -/
theorem index4 : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)

/-- Reading an array through the block of a point: the entry at the block's place in the array. -/
theorem read_blk4 (c : Dev nD) (t : Fin cfg0.N) (G : Buf (Elt Ideal) ((c : Thread nD τ).loc main_v2_1))
    (y : ((cfg0.win 4).xblock (grid0.coords t)).Idx) :
    ((cfg0.win 4).blk t).view.read (Elt Ideal) G y = G (((cfg0.win 4).blk t).view.emb y) := rfl

/-- What a write-back of window 4 writes is the block of the array of sums: the point's batch is the block's
    index on axis 0, and the invariant gives the buffer's entries. -/
theorem flushed_eq_4 (hinv : Inv m) (c : Dev nD) (t : Fin cfg0.N) (hf : (cfg0.win 4).flush t = true) :
    (dats m 0 c).flushed 4 t = ((cfg0.win 4).blk t).view.read (Elt Ideal) (G4 m c) := by
  have h7 : t.val % 8 = 7 := (flush0_4 t).mp hf
  show (cfg0.win 4).cut (grid0.coords t) ((dats m 0 c).after 4 t) = _
  rw [after0_4]
  funext y
  refine Eq.trans ?_ (read_blk4 c t (G4 m c) y).symm
  have e : (cfg0.win 4).xinj (grid0.coords t) y
      = ix3 (n0 := 1) (n1 := 23) (n2 := 1) ((cfg0.win 4).xinj (grid0.coords t) y 0) ((cfg0.win 4).xinj (grid0.coords t) y 1) ((cfg0.win 4).xinj (grid0.coords t) y 2) := eq_ix3 _
  refine (congrArg (outsAt0 m c t.val t.isLt).2.1 e).trans ?_
  refine ((hinv c t h7 _ _ _).2.1).trans ?_
  have hi := index4 t
  have y0 : (y 0).val < 1 := (y 0).isLt
  have e0 : batchOf t = ((cfg0.win 4).blk t).view.emb y 0 := by
    apply Fin.ext
    show t.val / 8 = win0_4.index t 0 * 1 + 1 * (y 0).val
    rw [hi.1]; omega
  have e1 : (cfg0.win 4).xinj (grid0.coords t) y 1 = ((cfg0.win 4).blk t).view.emb y 1 := by
    apply Fin.ext
    show (y 1).val = win0_4.index t 1 * 23 + 1 * (y 1).val
    rw [hi.2.1]; omega
  dsimp only [G4]
  rw [e0, e1]

/-- The eight write-backs tile the array: entry (p, j, 0) is in the block of point 8 p + 7. So the array ends
    holding the sums A. -/
theorem final4 (hinv : Inv m) (c : Dev nD) : (dats m 0 c).arrAt 4 cfg0.N = G4 m c :=
  (dats m 0 c).arrAt_eq_of_cover 4 (G4 m c) (flushed_eq_4 m hinv c) fun i => by
    have hN : cfg0.N = 64 := N_0
    have h0 : (i 0 : Nat) < 8 := (i 0).isLt
    have h1 : (i 1 : Nat) < 23 := (i 1).isLt
    have h2 : (i 2 : Nat) < 1 := (i 2).isLt
    obtain ⟨t, ht⟩ : ∃ t : Fin cfg0.N, t.val = 8 * (i 0).val + 7 := ⟨⟨8 * (i 0).val + 7, by omega⟩, rfl⟩
    refine ⟨t, (flush0_4 t).mpr (by omega), ?_⟩
    show i ∈ ((View.whole main_v2_1).slice (win0_4.rect t)).set
    rw [View.set_slice_whole, Rect.mem_set_unit]
    intro a
    have hi := index4 t
    match a with
    | ⟨0, _⟩ =>
      show win0_4.index t 0 * win0_4.size 0 ≤ (i 0 : Nat) ∧ (i 0 : Nat) < win0_4.index t 0 * win0_4.size 0 + win0_4.xsize (grid0.coords t) 0
      rw [hi.1, show win0_4.size 0 = 1 from rfl, show win0_4.xsize (grid0.coords t) 0 = 1 from rfl]; omega
    | ⟨1, _⟩ =>
      show win0_4.index t 1 * win0_4.size 1 ≤ (i 1 : Nat) ∧ (i 1 : Nat) < win0_4.index t 1 * win0_4.size 1 + win0_4.xsize (grid0.coords t) 1
      rw [hi.2.1, show win0_4.size 1 = 23 from rfl, show win0_4.xsize (grid0.coords t) 1 = 23 from rfl]; omega
    | ⟨2, _⟩ =>
      show win0_4.index t 2 * win0_4.size 2 ≤ (i 2 : Nat) ∧ (i 2 : Nat) < win0_4.index t 2 * win0_4.size 2 + win0_4.xsize (grid0.coords t) 2
      rw [hi.2.2, show win0_4.size 2 = 1 from rfl, show win0_4.xsize (grid0.coords t) 2 = 1 from rfl]; omega

/-! ## Output window 5: the array of the sums B -/

/-- The array of the sums B, entry by entry. -/
def G5 (c : Dev nD) : Buf (Elt Ideal) ((c : Thread nD τ).loc main_v2_2) :=
  fun i => Cert.Spec.sumWH (gOf m c) (cenOf m c) (heatOf m c) (i 0) (i 1)

/-- The block index of window 5 at a grid point: (batch, 0, 0). -/
theorem index5 : ∀ t : Fin cfg0.N, win0_5.index t 0 = t.val / 8 ∧ win0_5.index t 1 = 0 ∧ win0_5.index t 2 = 0 :=
  (by decide +kernel : ∀ t : Fin grid0.N, win0_5.index t 0 = t.val / 8 ∧ win0_5.index t 1 = 0 ∧ win0_5.index t 2 = 0)

/-- Reading an array through the block of a point: the entry at the block's place in the array. -/
theorem read_blk5 (c : Dev nD) (t : Fin cfg0.N) (G : Buf (Elt Ideal) ((c : Thread nD τ).loc main_v2_2))
    (y : ((cfg0.win 5).xblock (grid0.coords t)).Idx) :
    ((cfg0.win 5).blk t).view.read (Elt Ideal) G y = G (((cfg0.win 5).blk t).view.emb y) := rfl

/-- What a write-back of window 5 writes is the block of the array of sums: the point's batch is the block's
    index on axis 0, and the invariant gives the buffer's entries. -/
theorem flushed_eq_5 (hinv : Inv m) (c : Dev nD) (t : Fin cfg0.N) (hf : (cfg0.win 5).flush t = true) :
    (dats m 0 c).flushed 5 t = ((cfg0.win 5).blk t).view.read (Elt Ideal) (G5 m c) := by
  have h7 : t.val % 8 = 7 := (flush0_5 t).mp hf
  show (cfg0.win 5).cut (grid0.coords t) ((dats m 0 c).after 5 t) = _
  rw [after0_5]
  funext y
  refine Eq.trans ?_ (read_blk5 c t (G5 m c) y).symm
  have e : (cfg0.win 5).xinj (grid0.coords t) y
      = ix3 (n0 := 1) (n1 := 23) (n2 := 1) ((cfg0.win 5).xinj (grid0.coords t) y 0) ((cfg0.win 5).xinj (grid0.coords t) y 1) ((cfg0.win 5).xinj (grid0.coords t) y 2) := eq_ix3 _
  refine (congrArg (outsAt0 m c t.val t.isLt).2.2.1 e).trans ?_
  refine ((hinv c t h7 _ _ _).2.2.1).trans ?_
  have hi := index5 t
  have y0 : (y 0).val < 1 := (y 0).isLt
  have e0 : batchOf t = ((cfg0.win 5).blk t).view.emb y 0 := by
    apply Fin.ext
    show t.val / 8 = win0_5.index t 0 * 1 + 1 * (y 0).val
    rw [hi.1]; omega
  have e1 : (cfg0.win 5).xinj (grid0.coords t) y 1 = ((cfg0.win 5).blk t).view.emb y 1 := by
    apply Fin.ext
    show (y 1).val = win0_5.index t 1 * 23 + 1 * (y 1).val
    rw [hi.2.1]; omega
  dsimp only [G5]
  rw [e0, e1]

/-- The eight write-backs tile the array: entry (p, j, 0) is in the block of point 8 p + 7. So the array ends
    holding the sums B. -/
theorem final5 (hinv : Inv m) (c : Dev nD) : (dats m 0 c).arrAt 5 cfg0.N = G5 m c :=
  (dats m 0 c).arrAt_eq_of_cover 5 (G5 m c) (flushed_eq_5 m hinv c) fun i => by
    have hN : cfg0.N = 64 := N_0
    have h0 : (i 0 : Nat) < 8 := (i 0).isLt
    have h1 : (i 1 : Nat) < 23 := (i 1).isLt
    have h2 : (i 2 : Nat) < 1 := (i 2).isLt
    obtain ⟨t, ht⟩ : ∃ t : Fin cfg0.N, t.val = 8 * (i 0).val + 7 := ⟨⟨8 * (i 0).val + 7, by omega⟩, rfl⟩
    refine ⟨t, (flush0_5 t).mpr (by omega), ?_⟩
    show i ∈ ((View.whole main_v2_2).slice (win0_5.rect t)).set
    rw [View.set_slice_whole, Rect.mem_set_unit]
    intro a
    have hi := index5 t
    match a with
    | ⟨0, _⟩ =>
      show win0_5.index t 0 * win0_5.size 0 ≤ (i 0 : Nat) ∧ (i 0 : Nat) < win0_5.index t 0 * win0_5.size 0 + win0_5.xsize (grid0.coords t) 0
      rw [hi.1, show win0_5.size 0 = 1 from rfl, show win0_5.xsize (grid0.coords t) 0 = 1 from rfl]; omega
    | ⟨1, _⟩ =>
      show win0_5.index t 1 * win0_5.size 1 ≤ (i 1 : Nat) ∧ (i 1 : Nat) < win0_5.index t 1 * win0_5.size 1 + win0_5.xsize (grid0.coords t) 1
      rw [hi.2.1, show win0_5.size 1 = 23 from rfl, show win0_5.xsize (grid0.coords t) 1 = 23 from rfl]; omega
    | ⟨2, _⟩ =>
      show win0_5.index t 2 * win0_5.size 2 ≤ (i 2 : Nat) ∧ (i 2 : Nat) < win0_5.index t 2 * win0_5.size 2 + win0_5.xsize (grid0.coords t) 2
      rw [hi.2.2, show win0_5.size 2 = 1 from rfl, show win0_5.xsize (grid0.coords t) 2 = 1 from rfl]; omega

/-! ## Output window 6: the array of the sums C -/

/-- The array of the sums C, entry by entry. -/
def G6 (c : Dev nD) : Buf (Elt Ideal) ((c : Thread nD τ).loc main_v2_3) :=
  fun i => Cert.Spec.sumHH (heatOf m c) (i 0) (i 1)

/-- The block index of window 6 at a grid point: (batch, 0, 0). -/
theorem index6 : ∀ t : Fin cfg0.N, win0_6.index t 0 = t.val / 8 ∧ win0_6.index t 1 = 0 ∧ win0_6.index t 2 = 0 :=
  (by decide +kernel : ∀ t : Fin grid0.N, win0_6.index t 0 = t.val / 8 ∧ win0_6.index t 1 = 0 ∧ win0_6.index t 2 = 0)

/-- Reading an array through the block of a point: the entry at the block's place in the array. -/
theorem read_blk6 (c : Dev nD) (t : Fin cfg0.N) (G : Buf (Elt Ideal) ((c : Thread nD τ).loc main_v2_3))
    (y : ((cfg0.win 6).xblock (grid0.coords t)).Idx) :
    ((cfg0.win 6).blk t).view.read (Elt Ideal) G y = G (((cfg0.win 6).blk t).view.emb y) := rfl

/-- What a write-back of window 6 writes is the block of the array of sums: the point's batch is the block's
    index on axis 0, and the invariant gives the buffer's entries. -/
theorem flushed_eq_6 (hinv : Inv m) (c : Dev nD) (t : Fin cfg0.N) (hf : (cfg0.win 6).flush t = true) :
    (dats m 0 c).flushed 6 t = ((cfg0.win 6).blk t).view.read (Elt Ideal) (G6 m c) := by
  have h7 : t.val % 8 = 7 := (flush0_6 t).mp hf
  show (cfg0.win 6).cut (grid0.coords t) ((dats m 0 c).after 6 t) = _
  rw [after0_6]
  funext y
  refine Eq.trans ?_ (read_blk6 c t (G6 m c) y).symm
  have e : (cfg0.win 6).xinj (grid0.coords t) y
      = ix3 (n0 := 1) (n1 := 23) (n2 := 1) ((cfg0.win 6).xinj (grid0.coords t) y 0) ((cfg0.win 6).xinj (grid0.coords t) y 1) ((cfg0.win 6).xinj (grid0.coords t) y 2) := eq_ix3 _
  refine (congrArg (outsAt0 m c t.val t.isLt).2.2.2.1 e).trans ?_
  refine ((hinv c t h7 _ _ _).2.2.2).trans ?_
  have hi := index6 t
  have y0 : (y 0).val < 1 := (y 0).isLt
  have e0 : batchOf t = ((cfg0.win 6).blk t).view.emb y 0 := by
    apply Fin.ext
    show t.val / 8 = win0_6.index t 0 * 1 + 1 * (y 0).val
    rw [hi.1]; omega
  have e1 : (cfg0.win 6).xinj (grid0.coords t) y 1 = ((cfg0.win 6).blk t).view.emb y 1 := by
    apply Fin.ext
    show (y 1).val = win0_6.index t 1 * 23 + 1 * (y 1).val
    rw [hi.2.1]; omega
  dsimp only [G6]
  rw [e0, e1]

/-- The eight write-backs tile the array: entry (p, j, 0) is in the block of point 8 p + 7. So the array ends
    holding the sums C. -/
theorem final6 (hinv : Inv m) (c : Dev nD) : (dats m 0 c).arrAt 6 cfg0.N = G6 m c :=
  (dats m 0 c).arrAt_eq_of_cover 6 (G6 m c) (flushed_eq_6 m hinv c) fun i => by
    have hN : cfg0.N = 64 := N_0
    have h0 : (i 0 : Nat) < 8 := (i 0).isLt
    have h1 : (i 1 : Nat) < 23 := (i 1).isLt
    have h2 : (i 2 : Nat) < 1 := (i 2).isLt
    obtain ⟨t, ht⟩ : ∃ t : Fin cfg0.N, t.val = 8 * (i 0).val + 7 := ⟨⟨8 * (i 0).val + 7, by omega⟩, rfl⟩
    refine ⟨t, (flush0_6 t).mpr (by omega), ?_⟩
    show i ∈ ((View.whole main_v2_3).slice (win0_6.rect t)).set
    rw [View.set_slice_whole, Rect.mem_set_unit]
    intro a
    have hi := index6 t
    match a with
    | ⟨0, _⟩ =>
      show win0_6.index t 0 * win0_6.size 0 ≤ (i 0 : Nat) ∧ (i 0 : Nat) < win0_6.index t 0 * win0_6.size 0 + win0_6.xsize (grid0.coords t) 0
      rw [hi.1, show win0_6.size 0 = 1 from rfl, show win0_6.xsize (grid0.coords t) 0 = 1 from rfl]; omega
    | ⟨1, _⟩ =>
      show win0_6.index t 1 * win0_6.size 1 ≤ (i 1 : Nat) ∧ (i 1 : Nat) < win0_6.index t 1 * win0_6.size 1 + win0_6.xsize (grid0.coords t) 1
      rw [hi.2.1, show win0_6.size 1 = 23 from rfl, show win0_6.xsize (grid0.coords t) 1 = 23 from rfl]; omega
    | ⟨2, _⟩ =>
      show win0_6.index t 2 * win0_6.size 2 ≤ (i 2 : Nat) ∧ (i 2 : Nat) < win0_6.index t 2 * win0_6.size 2 + win0_6.xsize (grid0.coords t) 2
      rw [hi.2.2, show win0_6.size 2 = 1 from rfl, show win0_6.xsize (grid0.coords t) 2 = 1 from rfl]; omega

/-- The array of the sums S at batch p and joint j. -/
theorem G3_apply (c : Dev nD) (p : Fin 8) (j : Fin 23) (u : Fin 1) :
    G3 m c (ix3 p j u) = Cert.Spec.sumW (gOf m c) (cenOf m c) p j := rfl

/-- The array of the sums A at batch p and joint j. -/
theorem G4_apply (c : Dev nD) (p : Fin 8) (j : Fin 23) (u : Fin 1) :
    G4 m c (ix3 p j u) = Cert.Spec.sumWW (gOf m c) (cenOf m c) p j := rfl

/-- The array of the sums B at batch p and joint j. -/
theorem G5_apply (c : Dev nD) (p : Fin 8) (j : Fin 23) (u : Fin 1) :
    G5 m c (ix3 p j u) = Cert.Spec.sumWH (gOf m c) (cenOf m c) (heatOf m c) p j := rfl

/-- The array of the sums C at batch p and joint j. -/
theorem G6_apply (c : Dev nD) (p : Fin 8) (j : Fin 23) (u : Fin 1) :
    G6 m c (ix3 p j u) = Cert.Spec.sumHH (heatOf m c) p j := rfl

end Cert.KernelIdeal.Final

end
-- ==== Proof.KernelTail.lean ====
/-
  The operations after the four row sums: from the arrays S, A, B, C (one entry per batch and joint) the one-pass
  program forms A / S² - 2 B / S + C entry by entry, totals it from the zero word, divides by eight and multiplies
  by one. Read at its one index, that is the one-pass form of the loss.
-/
import proofs.«132371_j57226144252798_2_alg».proof.KernelIdeal
import proofs.«132371_j57226144252798_2_alg».proof.Proof.Gen.KernelIdeal
import proofs.«132371_j57226144252798_2_alg».proof.Proof.Spec
import proofs.«132371_j57226144252798_2_alg».proof.Proof.LibIdx3
import Idealize.ShloMosaic.Lib.ValueIdx
import Idealize.ShloMosaic.Lib.Pipeline.Value
import Idealize.ShloMosaic.PureOps.Ideal.Laws

noncomputable section

namespace Cert.KernelIdeal.Tail

open Idealize.ShloMosaic Idealize.ShloMosaic.ValueIdx Cert.KernelIdeal Cert.KernelIdeal.Gen

/-- The operations after the row sums, composed in the program's order: with S, A, B, C the four arrays,
    1 · ((0 + Σ (A / (S · S) - (2 · B) / S + C)) / 8). -/
def tail (s a b c : (⟨S8x23x1, .f32⟩ : BufTy).Contents (Elt Ideal)) : (⟨S_, .f32⟩ : BufTy).Contents (Elt Ideal) :=
  mulf (constant (F := Ideal) S_ .f32 0x3F800000#32)
    (Host.divf (F := Ideal)
      (Host.reduceAdd (F := Ideal)
        (addf (subf (Host.divf (F := Ideal) a (mulf s s))
                    (Host.divf (F := Ideal) (mulf (broadcastInDim S8x23x1 ![] bcast_S_S8x23x1 (constant (F := Ideal) S_ .f32 0x40000000#32)) b) s))
              c)
        (constant (F := Ideal) S_ .f32 0x00000000#32) reducesTo_S8x23x1_S_d0_1_2 h_S_)
      (constant (F := Ideal) S_ .f32 0x41000000#32))

/-- One entry of the array that is totalled: A / (S · S) - (2 · B) / S + C at that batch and joint. -/
theorem row_apply (g : Fin 8 → Fin 262144 → Fin 3 → EReal) (cen : Fin 8 → Fin 3 → Fin 23 → EReal) (h : Fin 8 → Fin 23 → Fin 262144 → EReal)
    (s a b c : (⟨S8x23x1, .f32⟩ : BufTy).Contents (Elt Ideal))
    (hs : ∀ (p : Fin 8) (j : Fin 23) (u : Fin 1), s (ix3 p j u) = Cert.Spec.sumW g cen p j)
    (ha : ∀ (p : Fin 8) (j : Fin 23) (u : Fin 1), a (ix3 p j u) = Cert.Spec.sumWW g cen p j)
    (hb : ∀ (p : Fin 8) (j : Fin 23) (u : Fin 1), b (ix3 p j u) = Cert.Spec.sumWH g cen h p j)
    (hc : ∀ (p : Fin 8) (j : Fin 23) (u : Fin 1), c (ix3 p j u) = Cert.Spec.sumHH h p j)
    (p : Fin 8) (j : Fin 23) (u : Fin 1) :
    (addf (subf (Host.divf (F := Ideal) a (mulf s s))
                (Host.divf (F := Ideal) (mulf (broadcastInDim S8x23x1 ![] bcast_S_S8x23x1 (constant (F := Ideal) S_ .f32 0x40000000#32)) b) s))
          c : (⟨S8x23x1, .f32⟩ : BufTy).Contents (Elt Ideal)) (ix3 p j u)
      = Cert.Spec.rowLoss g cen h p j := by
  have h2 : broadcastInDim S8x23x1 ![] bcast_S_S8x23x1 (constant (F := Ideal) S_ .f32 0x40000000#32) (ix3 p j u) = Cert.Spec.two :=
    broadcastInDim_apply _ bcast_S_S8x23x1 _ (ix3 p j u) (fun e => e.elim0) (fun e => e.elim0)
  show FloatOps.addf (FloatOps.subf (FloatOps.hostDivf (a (ix3 p j u)) (FloatOps.mulf (s (ix3 p j u)) (s (ix3 p j u))))
      (FloatOps.hostDivf (FloatOps.mulf (broadcastInDim S8x23x1 ![] bcast_S_S8x23x1 (constant (F := Ideal) S_ .f32 0x40000000#32) (ix3 p j u)) (b (ix3 p j u))) (s (ix3 p j u))))
      (c (ix3 p j u)) = _
  rw [h2, hs, ha, hb, hc]
  rfl

/-- The operations after the row sums give the one-pass form of the loss. -/
theorem tail_apply (g : Fin 8 → Fin 262144 → Fin 3 → EReal) (cen : Fin 8 → Fin 3 → Fin 23 → EReal) (h : Fin 8 → Fin 23 → Fin 262144 → EReal)
    (s a b c : (⟨S8x23x1, .f32⟩ : BufTy).Contents (Elt Ideal))
    (hs : ∀ (p : Fin 8) (j : Fin 23) (u : Fin 1), s (ix3 p j u) = Cert.Spec.sumW g cen p j)
    (ha : ∀ (p : Fin 8) (j : Fin 23) (u : Fin 1), a (ix3 p j u) = Cert.Spec.sumWW g cen p j)
    (hb : ∀ (p : Fin 8) (j : Fin 23) (u : Fin 1), b (ix3 p j u) = Cert.Spec.sumWH g cen h p j)
    (hc : ∀ (p : Fin 8) (j : Fin 23) (u : Fin 1), c (ix3 p j u) = Cert.Spec.sumHH h p j) (i : S_.Idx) :
    tail s a b c i = Cert.Spec.kernelLoss g cen h := by
  have hsum : ∀ y0 : (⟨S8x23x1, .f32⟩ : BufTy).Contents (Elt Ideal),
      Host.reduceAdd (F := Ideal) y0 (constant (F := Ideal) S_ .f32 0x00000000#32) reducesTo_S8x23x1_S_d0_1_2 h_S_ i
        = Cert.Spec.zero + ∑ q : S8x23x1.Idx, y0 q := fun y0 => by
    simp only [Host.reduceAdd, Ideal.hostReduceAdd_def]
    exact Ideal.hostReduceAdd_total reducesTo_S8x23x1_S_d0_1_2 (fun e => e.elim0) y0 _ i
  unfold tail
  show FloatOps.mulf (FloatOps.ofBits .f32 0x3F800000#32)
    (FloatOps.hostDivf (Host.reduceAdd (F := Ideal) _ (constant (F := Ideal) S_ .f32 0x00000000#32) reducesTo_S8x23x1_S_d0_1_2 h_S_ i)
      (FloatOps.ofBits .f32 0x41000000#32)) = _
  rw [hsum, Cert.LibIdx3.sum_idx3]
  have hrow : ∀ (p : Fin 8) (j : Fin 23), ∑ u : Fin 1,
      (addf (subf (Host.divf (F := Ideal) a (mulf s s))
                (Host.divf (F := Ideal) (mulf (broadcastInDim S8x23x1 ![] bcast_S_S8x23x1 (constant (F := Ideal) S_ .f32 0x40000000#32)) b) s))
          c : (⟨S8x23x1, .f32⟩ : BufTy).Contents (Elt Ideal)) (ix3 p j u) = Cert.Spec.rowLoss g cen h p j := fun p j => by
    rw [Fin.sum_univ_one]
    exact row_apply g cen h s a b c hs ha hb hc p j 0
  simp only [hrow]
  rfl

end Cert.KernelIdeal.Tail

end
-- ==== Proof.KernelRun.lean ====
/-
  The kernel program's run, given what its four output arrays end holding.

  After the region the host combines the four output arrays S, A, B, C (one entry per batch and joint) into the loss:
  A / S² - 2 B / S + C entry by entry, summed, divided by 8. The run's result is therefore that function of whatever the
  four arrays hold after the last write-back, and the argument arrays end as they were launched.
-/
import proofs.«132371_j57226144252798_2_alg».proof.Proof.Gen.KernelIdeal.Frame
import proofs.«132371_j57226144252798_2_alg».proof.Proof.KernelTail
import Idealize.ShloMosaic.Lib.Pipeline.Value
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The scalar the host's closing operations leave is the closing function of the four output arrays as the region
    leaves them. -/
theorem tail_value (c : Dev nD) (Gs Ga Gb Gc : S8x23x1.Idx → Elt Ideal .f32)
    (f3 : (dats m 0 c).arrAt 3 cfg0.N = Gs) (f4 : (dats m 0 c).arrAt 4 cfg0.N = Ga)
    (f5 : (dats m 0 c).arrAt 5 cfg0.N = Gb) (f6 : (dats m 0 c).arrAt 6 cfg0.N = Gc) :
    Pipeline.afterTail₀ cfgs (dats m) 0 (V0 m) [hostOps1] c main_v12 = Cert.KernelIdeal.Tail.tail Gs Ga Gb Gc := by
  have e3 : Pipeline.withArrays (cfgs 0).spec c (V0 m c) (fun w => (dats m 0 c).arrAt w (cfgs 0).N) (Proc.devRef .tc main_v2_0) = Gs :=
    (Pipeline.withArrays_arr spec0 launch0.win.arr_inj c _ _ 3).trans f3
  have e4 : Pipeline.withArrays (cfgs 0).spec c (V0 m c) (fun w => (dats m 0 c).arrAt w (cfgs 0).N) (Proc.devRef .tc main_v2_1) = Ga :=
    (Pipeline.withArrays_arr spec0 launch0.win.arr_inj c _ _ 4).trans f4
  have e5 : Pipeline.withArrays (cfgs 0).spec c (V0 m c) (fun w => (dats m 0 c).arrAt w (cfgs 0).N) (Proc.devRef .tc main_v2_2) = Gb :=
    (Pipeline.withArrays_arr spec0 launch0.win.arr_inj c _ _ 5).trans f5
  have e6 : Pipeline.withArrays (cfgs 0).spec c (V0 m c) (fun w => (dats m 0 c).arrAt w (cfgs 0).N) (Proc.devRef .tc main_v2_3) = Gc :=
    (Pipeline.withArrays_arr spec0 launch0.win.arr_inj c _ _ 6).trans f6
  unfold Pipeline.afterTail₀
  show StableHlo.after hostOps1 _ (Proc.devRef .tc main_v12) = _
  after_results
  rw [e3, e4, e5, e6]
  rfl

/-- The run: the result at the closing function of the four final arrays, the arguments unchanged. -/
theorem run_of_final (Gs Ga Gb Gc : Dev nD → S8x23x1.Idx → Elt Ideal .f32)
    (f3 : ∀ c, (dats m 0 c).arrAt 3 cfg0.N = Gs c) (f4 : ∀ c, (dats m 0 c).arrAt 4 cfg0.N = Ga c)
    (f5 : ∀ c, (dats m 0 c).arrAt 5 cfg0.N = Gb c) (f6 : ∀ c, (dats m 0 c).arrAt 6 cfg0.N = Gc c) :
    θ_run defs (onTc (τ := τ) (main (F := Ideal))) ⟨m, fun _ => 0, ρ⟩ (fun r => ∀ c : Dev nD,
      r.2.mem ((c.tc : Thread nD τ).loc main_v12) = Cert.KernelIdeal.Tail.tail (Gs c) (Ga c) (Gb c) (Gc c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v12 (Pipeline.mem_restRefs_of main_v12 (by decide) (by decide))).trans
        (tail_value m c _ _ _ _ (f3 c) (f4 c) (f5 c) (f6 c)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Run

end
-- ==== Proof.lean ====
/-
  The one-pass kernel and the direct reference compute the same loss.

  Per batch b and joint j, with weights e_n = exp (2 · exp (-d_n)) over the 262144 grid points n (d_n the squared
  distance from grid point n to the joint's predicted centre) and heat map h_n, the reference returns
  Σ_{b,j,n} (e_n / Σ_k e_k - h_n)² / 8, forming the softmax after subtracting the row's maximum; the kernel streams the
  grid points in 8 tiles of 32768, keeps S = Σ e, A = Σ e², B = Σ e·h, C = Σ h² per (b, j) in four accumulators that
  restart at each batch's first tile and are written out at its last, and the host then returns
  Σ_{b,j} (A / S² - 2 B / S + C) / 8. On finite inputs every quantity is a real number, the subtracted maximum cancels
  in the softmax, and expanding the square gives Σ_n (e_n / S - h_n)² = A / S² - 2 B / S + C.

  The modules: `Spec` states both losses as functions of the argument arrays; `Law` proves them equal on finite
  arrays; `Finite` gets finiteness from the precondition; `RefValue` reads the reference's run as the direct loss;
  `KernelOps`, `KernelBlock`, `KernelPieces`, `KernelInputs`, `KernelAcc` read one grid point's body and follow the
  accumulators along a batch; `KernelTail` reads the host's closing operations; `KernelFinal` reads the four output
  arrays after the last write-back and `KernelRun` the kernel program's run from them. The ideal pass rewrote nothing, so `preserves` is `True`.
-/
import proofs.«132371_j57226144252798_2_alg».proof.Defs
import proofs.«132371_j57226144252798_2_alg».proof.Proof.Gen.Kernel
import proofs.«132371_j57226144252798_2_alg».proof.Proof.Gen.Kernel.Skeleton
import proofs.«132371_j57226144252798_2_alg».proof.Proof.Gen.Kernel.Launch
import proofs.«132371_j57226144252798_2_alg».proof.Proof.Gen.Kernel.Points
import proofs.«132371_j57226144252798_2_alg».proof.Proof.Gen.Kernel.Frame
import proofs.«132371_j57226144252798_2_alg».proof.Proof.Gen.KernelIdeal
import proofs.«132371_j57226144252798_2_alg».proof.Proof.Gen.KernelIdeal.Skeleton
import proofs.«132371_j57226144252798_2_alg».proof.Proof.Gen.KernelIdeal.Launch
import proofs.«132371_j57226144252798_2_alg».proof.Proof.Gen.KernelIdeal.Points
import proofs.«132371_j57226144252798_2_alg».proof.Proof.Gen.KernelIdeal.Frame
import proofs.«132371_j57226144252798_2_alg».proof.Proof.Gen.ReferenceIdeal
import proofs.«132371_j57226144252798_2_alg».proof.Proof.Gen.ReferenceIdeal.Run
import proofs.«132371_j57226144252798_2_alg».proof.Proof.Gen.ReferenceIdeal.Read
import proofs.«132371_j57226144252798_2_alg».proof.Proof.Gen.Pre_finite_inputs
import proofs.«132371_j57226144252798_2_alg».proof.Proof.Law
import proofs.«132371_j57226144252798_2_alg».proof.Proof.Finite
import proofs.«132371_j57226144252798_2_alg».proof.Proof.RefValue
import proofs.«132371_j57226144252798_2_alg».proof.Proof.KernelAcc
import proofs.«132371_j57226144252798_2_alg».proof.Proof.KernelFinal
import proofs.«132371_j57226144252798_2_alg».proof.Proof.KernelRun
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program's run ends at the one-pass loss of its arguments: after each batch's last tile the four output
    blocks hold the batch's four sums, every block of the four output arrays is written back exactly then, and the
    host's closing operations of those arrays are the one-pass loss. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v12)
          = (fun _ => Cert.Spec.kernelLoss (Cert.KernelIdeal.Args.gOf m c) (Cert.KernelIdeal.Args.cenOf m c) (Cert.KernelIdeal.Args.heatOf m c))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  have hinv : Cert.KernelIdeal.Final.Inv m := fun c t h7 a j u => Cert.KernelIdeal.Acc.outputs_last m c t h7 a j u
  (θ_run Cert.KernelIdeal.defs _ _).mono
    (fun _ h c => ⟨(h c).1.trans (funext fun i =>
        Cert.KernelIdeal.Tail.tail_apply (Cert.KernelIdeal.Args.gOf m c) (Cert.KernelIdeal.Args.cenOf m c) (Cert.KernelIdeal.Args.heatOf m c)
          (Cert.KernelIdeal.Final.G3 m c) (Cert.KernelIdeal.Final.G4 m c) (Cert.KernelIdeal.Final.G5 m c) (Cert.KernelIdeal.Final.G6 m c)
          (Cert.KernelIdeal.Final.G3_apply m c) (Cert.KernelIdeal.Final.G4_apply m c) (Cert.KernelIdeal.Final.G5_apply m c)
          (Cert.KernelIdeal.Final.G6_apply m c) i), (h c).2⟩)
    (Cert.KernelIdeal.Run.run_of_final m ρ (Cert.KernelIdeal.Final.G3 m) (Cert.KernelIdeal.Final.G4 m) (Cert.KernelIdeal.Final.G5 m)
      (Cert.KernelIdeal.Final.G6 m) (Cert.KernelIdeal.Final.final3 m hinv) (Cert.KernelIdeal.Final.final4 m hinv)
      (Cert.KernelIdeal.Final.final5 m hinv) (Cert.KernelIdeal.Final.final6 m hinv))

/-- Both programs end at the one-pass loss of the kernel program's arguments: the kernel by its accumulators'
    invariant, the reference because its direct loss of arguments that agree is, on finite arrays, the same number. -/
theorem algebraic : Cert.algebraic_KernelIdeal_ReferenceIdeal := by
  intro m ρ m' ρ' hpre hagree
  refine ⟨fun c => fun _ => Cert.Spec.kernelLoss (Cert.KernelIdeal.Args.gOf m c) (Cert.KernelIdeal.Args.cenOf m c) (Cert.KernelIdeal.Args.heatOf m c),
    kernel_run m ρ, ?_⟩
  refine (θ_run Cert.ReferenceIdeal.defs _ _).mono (fun _ h c => ⟨?_, (h c).2⟩)
    (Cert.ReferenceIdeal.Value.run (F := Ideal) m' ρ')
  obtain ⟨r1, r2, r3⟩ := Cert.Finite.real_of_finite_inputs _ _ _ _ (hpre c)
  rw [(h c).1, Cert.ReferenceIdeal.Read.val_main_v33_eq, (hagree c).2.1, (hagree c).2.2.1, (hagree c).2.2.2]
  funext i
  rw [Cert.RefValue.result_eq _ _ _ Cert.KernelIdeal.Gen.shapeCasts_S8x23x64x64x64_S8x23x262144 i]
  exact (Cert.Law.kernelLoss_eq_referenceLoss (Cert.KernelIdeal.Args.gOf m c) (Cert.KernelIdeal.Args.cenOf m c)
    (Cert.KernelIdeal.Args.heatOf m c) (fun b n k => r3 (ix3 b n k)) (fun b k j => r1 (ix3 b k j))
    (fun b j n => r2 _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
